-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x12x1024x64 : Shape := ⟨4, ![16, 12, 1024, 64]⟩
abbrev S64x64 : Shape := ⟨2, ![64, 64]⟩
abbrev S64 : Shape := ⟨1, ![64]⟩
abbrev S_ : Shape := ⟨0, ![]⟩

class Facts : Prop where
  bcast_S_S16x12x1024x64 : S_.BroadcastsInDim S16x12x1024x64 (![] : Fin 0 → Fin S16x12x1024x64.rank)
  reducesTo_S16x12x1024x64_S_d0_1_2_3 : S16x12x1024x64.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64x64 .f32) (main_arg8 : FVec F S64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S64x64 .f32) (main_arg6 : FVec F S64 .f32) (main_arg7 : FVec F S64x64 .f32) (main_arg8 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S16x12x1024x64 .f32) (main_arg1 : FVec F S64x64 .f32) (main_arg2 : FVec F S64 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) : IVec S_ 1 :=
  let main_v0 : FVec F S16x12x1024x64 .f32 := Host.absf main_arg0
  let main_cst : FVec F S_ .f32 := constant S_ .f32 0x7F800000#32
  let main_v1 : FVec F S16x12x1024x64 .f32 := broadcastInDim S16x12x1024x64 ![] bcast_S_S16x12x1024x64 main_cst
  let main_v2 : IVec S16x12x1024x64 1 := cmpf .olt main_v0 main_v1
  let main_c : IVec S_ 1 := constantI S_ 1 1#1
  let main_v3 : IVec S_ 1 := (fun x v => Host.reduce IntOp.andi x v reducesTo_S16x12x1024x64_S_d0_1_2_3 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_v13 main_v16
-- ==== Kernel.lean ====
abbrev S16x12x1024x64 : Shape := ⟨4, ![16, 12, 1024, 64]⟩
abbrev S64x64 : Shape := ⟨2, ![64, 64]⟩
abbrev S64 : Shape := ⟨1, ![64]⟩
abbrev S192x1024x64 : Shape := ⟨3, ![192, 1024, 64]⟩
abbrev S1x64 : Shape := ⟨2, ![1, 64]⟩
abbrev S4x1024x64 : Shape := ⟨3, ![4, 1024, 64]⟩
abbrev S1x1024x64 : Shape := ⟨3, ![1, 1024, 64]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 20
  | .vmem => 12
  | .smem => 0
  | _ => 0

abbrev bufTy : (tb : Table) → Fin (tcTables nBuf tb) → BufTy
  | .hbm, ⟨0, _⟩ => ⟨S16x12x1024x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S192x1024x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S192x1024x64, .f32⟩
  | .hbm, ⟨19, _⟩ => ⟨S16x12x1024x64, .f32⟩
  | .local _ .vmem, ⟨0, _⟩ => ⟨S4x1024x64, .f32⟩
  | .local _ .vmem, ⟨1, _⟩ => ⟨S4x1024x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S4x1024x64, .f32⟩
  | .local _ .vmem, ⟨11, _⟩ => ⟨S4x1024x64, .f32⟩
  | _, _ => ⟨S16x12x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![48], ![false]⟩

@[reducible] def k0_t1_loop : Scf.Loop 32 :=
  let c0_i32 : BitVec 32 := 0#32
  let c4_i32 : BitVec 32 := 4#32
  let v20 : BitVec 32 := Scalar.addi c0_i32 c4_i32
  let c1_i32 : BitVec 32 := 1#32
  ⟨c0_i32, v20, c1_i32⟩
def k0_off1 (k0_t1 : Fin k0_t1_loop.trips) : Fin 3 → Nat :=
  let c0_i32_17 : BitVec 32 := 0#32
  let c0_i32 : BitVec 32 := 0#32
  let c1_i32 : BitVec 32 := 1#32
  let arg11 : BitVec 32 := Scf.iv c0_i32 c1_i32 k0_t1
  let c1_i32_16 : BitVec 32 := 1#32
  let v21 : BitVec 32 := Scalar.muli arg11 c1_i32_16
  let v22 : BitVec 32 := Scalar.addi c0_i32_17 v21
  let v23 : Index := Scalar.indexCast v22
  let c0_18 : Index := 0#32
  let c0_19 : Index := 0#32
  ![v23.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x1024x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S16x12x1024x64_S192x1024x64 : S16x12x1024x64.ShapeCasts S192x1024x64
  transposes_S64x64_S64x64_1_0 : S64x64.Transposes [1, 0] S64x64
  shapeCasts_S64_S1x64 : S64.ShapeCasts S1x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  h_S1x1024x64 : 0 < S1x1024x64.numel
  shapeCasts_S1x1024x64_S1024x64 : S1x1024x64.ShapeCasts S1024x64
  broadcasts_S1x64_S1024x64 : S1x64.Broadcasts S1024x64
  reduces_S1024x1024_S1024 : S1024x1024.Reduces [1] S1024
  shapeCasts_S1024_S1024x1 : S1024.ShapeCasts S1024x1
  broadcasts_S1024x1_S1024x1024 : S1024x1.Broadcasts S1024x1024
  shapeCasts_S1024x64_S1x1024x64 : S1024x64.ShapeCasts S1x1024x64
  shapeCasts_S192x1024x64_S16x12x1024x64 : S192x1024x64.ShapeCasts S16x12x1024x64
  dot_S1024x64_S64x64_S1024x64_1_0_0_1_n_n_wf : DotDims.WF S1024x64 S64x64 S1024x64 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  k0_t1_ok : k0_t1_loop.OK
  k0_off1_inb : ∀ k0_t1 : Fin k0_t1_loop.trips, ∀ a, (k0_off1 k0_t1) a + S1x1024x64.size a ≤ S4x1024x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x64.size a ≤ S192x1024x64.size a
  hwx0_0 : ∀ i : grid0.Coords, EltTy.bits .f32 = 32 ∨ (Rect.block (s := S192x1024x64) S4x1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4x1024x64.size a ≤ S192x1024x64.size a
  hwx0_9 : ∀ i : grid0.Coords, EltTy.bits .f32 = 32 ∨ (Rect.block (s := S192x1024x64) S4x1024x64.size (cc0_transform_9 i) (hinb0_9 i)).WholeWords (EltTy.packing .f32)

variable [Facts₀]

def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v0) S4x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S4x1024x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16x12x1024x64 : Shape := ⟨4, ![16, 12, 1024, 64]⟩
abbrev S64x64 : Shape := ⟨2, ![64, 64]⟩
abbrev S64 : Shape := ⟨1, ![64]⟩
abbrev S1x1x1x64 : Shape := ⟨4, ![1, 1, 1, 64]⟩
abbrev S16x12x1024x1024 : Shape := ⟨4, ![16, 12, 1024, 1024]⟩
abbrev S_ : Shape := ⟨0, ![]⟩
abbrev S16x12x1024 : Shape := ⟨3, ![16, 12, 1024]⟩
abbrev S16x12x1024x1 : Shape := ⟨4, ![16, 12, 1024, 1]⟩

abbrev nBuf : Space → Nat
  | .hbm => 45
  | .vmem => 0
  | .smem => 0
  | _ => 0

abbrev bufTy : (tb : Table) → Fin (tcTables nBuf tb) → BufTy
  | .hbm, ⟨0, _⟩ => ⟨S16x12x1024x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S16x12x1024x64, .f32⟩
  | .hbm, ⟨10, _⟩ => ⟨S1x1x1x64, .f32⟩
  | .hbm, ⟨11, _⟩ => ⟨S16x12x1024x64, .f32⟩
  | .hbm, ⟨12, _⟩ => ⟨S16x12x1024x64, .f32⟩
  | .hbm, ⟨13, _⟩ => ⟨S16x12x1024x64, .f32⟩
  | .hbm, ⟨14, _⟩ => ⟨S1x1x1x64, .f32⟩
  | .hbm, ⟨15, _⟩ => ⟨S16x12x1024x64, .f32⟩
  | .hbm, ⟨16, _⟩ => ⟨S16x12x1024x64, .f32⟩
  | .hbm, ⟨17, _⟩ => ⟨S16x12x1024x64, .f32⟩
  | .hbm, ⟨18, _⟩ => ⟨S1x1x1x64, .f32⟩
  | .hbm, ⟨19, _⟩ => ⟨S16x12x1024x64, .f32⟩
  | .hbm, ⟨20, _⟩ => ⟨S16x12x1024x64, .f32⟩
  | .hbm, ⟨21, _⟩ => ⟨S16x12x1024x1024, .f32⟩
  | .hbm, ⟨22, _⟩ => ⟨S_, .f32⟩
  | .hbm, ⟨23, _⟩ => ⟨S_, .f32⟩
  | .hbm, ⟨24, _⟩ => ⟨S16x12x1024x1024, .f32⟩
  | .hbm, ⟨25, _⟩ => ⟨S16x12x1024x1024, .f32⟩
  | .hbm, ⟨26, _⟩ => ⟨S_, .f32⟩
  | .hbm, ⟨27, _⟩ => ⟨S16x12x1024, .f32⟩
  | .hbm, ⟨28, _⟩ => ⟨S_, .f32⟩
  | .hbm, ⟨29, _⟩ => ⟨S16x12x1024, .f32⟩
  | .hbm, ⟨30, _⟩ => ⟨S16x12x1024, .f32⟩
  | .hbm, ⟨31, _⟩ => ⟨S16x12x1024x1, .f32⟩
  | .hbm, ⟨32, _⟩ => ⟨S16x12x1024x1024, .f32⟩
  | .hbm, ⟨33, _⟩ => ⟨S16x12x1024x1024, .f32⟩
  | .hbm, ⟨34, _⟩ => ⟨S16x12x1024x1024, .f32⟩
  | .hbm, ⟨35, _⟩ => ⟨S_, .f32⟩
  | .hbm, ⟨36, _⟩ => ⟨S16x12x1024, .f32⟩
  | .hbm, ⟨37, _⟩ => ⟨S16x12x1024x1, .f32⟩
  | .hbm, ⟨38, _⟩ => ⟨S16x12x1024x1024, .f32⟩
  | .hbm, ⟨39, _⟩ => ⟨S16x12x1024x1024, .f32⟩
  | .hbm, ⟨40, _⟩ => ⟨S16x12x1024x64, .f32⟩
  | .hbm, ⟨41, _⟩ => ⟨S16x12x1024x64, .f32⟩
  | .hbm, ⟨42, _⟩ => ⟨S1x1x1x64, .f32⟩
  | .hbm, ⟨43, _⟩ => ⟨S16x12x1024x64, .f32⟩
  | .hbm, ⟨44, _⟩ => ⟨S16x12x1024x64, .f32⟩
  | _, _ => ⟨S16x12x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  bcast_S64_S1x1x1x64_3 : S64.BroadcastsInDim S1x1x1x64 (![3] : Fin 1 → Fin S1x1x1x64.rank)
  bcast_S1x1x1x64_S16x12x1024x64_0_1_2_3 : S1x1x1x64.BroadcastsInDim S16x12x1024x64 (![0, 1, 2, 3] : Fin 4 → Fin S16x12x1024x64.rank)
  bcast_S_S16x12x1024x1024 : S_.BroadcastsInDim S16x12x1024x1024 (![] : Fin 0 → Fin S16x12x1024x1024.rank)
  reducesTo_S16x12x1024x1024_S16x12x1024_d3 : S16x12x1024x1024.ReducesTo [3] S16x12x1024
  h_S_ : 0 < S_.numel
  bcast_S_S16x12x1024 : S_.BroadcastsInDim S16x12x1024 (![] : Fin 0 → Fin S16x12x1024.rank)
  bcast_S16x12x1024_S16x12x1024x1_0_1_2 : S16x12x1024.BroadcastsInDim S16x12x1024x1 (![0, 1, 2] : Fin 3 → Fin S16x12x1024x1.rank)
  bcast_S16x12x1024x1_S16x12x1024x1024_0_1_2_3 : S16x12x1024x1.BroadcastsInDim S16x12x1024x1024 (![0, 1, 2, 3] : Fin 4 → Fin S16x12x1024x1024.rank)
  dot_S16x12x1024x64_S64x64_S16x12x1024x64_3_1_012_0_n_n_wf : DotDims.WF S16x12x1024x64 S64x64 S16x12x1024x64 [3] [1] [0, 1, 2] [0] [] []
  dot_S16x12x1024x64_S16x12x1024x64_S16x12x1024x1024_3_3_2_2_01_01_wf : DotDims.WF S16x12x1024x64 S16x12x1024x64 S16x12x1024x1024 [3] [3] [2] [2] [0, 1] [0, 1]
  dot_S16x12x1024x1024_S16x12x1024x64_S16x12x1024x64_3_2_2_3_01_01_wf : DotDims.WF S16x12x1024x1024 S16x12x1024x64 S16x12x1024x64 [3] [2] [2] [3] [0, 1] [0, 1]

variable [Facts₀]

def dot_S16x12x1024x64_S64x64_S16x12x1024x64_3_1_012_0_n_n : DotDims S16x12x1024x64 S64x64 S16x12x1024x64 where
  lhsContracting := [3]
  rhsContracting := [1]
  lhsNonContracting := [0, 1, 2]
  rhsNonContracting := [0]
  lhsBatch := []
  rhsBatch := []
  wf := dot_S16x12x1024x64_S64x64_S16x12x1024x64_3_1_012_0_n_n_wf
def dot_S16x12x1024x64_S16x12x1024x64_S16x12x1024x1024_3_3_2_2_01_01 : DotDims S16x12x1024x64 S16x12x1024x64 S16x12x1024x1024 where
  lhsContracting := [3]
  rhsContracting := [3]
  lhsNonContracting := [2]
  rhsNonContracting := [2]
  lhsBatch := [0, 1]
  rhsBatch := [0, 1]
  wf := dot_S16x12x1024x64_S16x12x1024x64_S16x12x1024x1024_3_3_2_2_01_01_wf
def dot_S16x12x1024x1024_S16x12x1024x64_S16x12x1024x64_3_2_2_3_01_01 : DotDims S16x12x1024x1024 S16x12x1024x64 S16x12x1024x64 where
  lhsContracting := [3]
  rhsContracting := [2]
  lhsNonContracting := [2]
  rhsNonContracting := [3]
  lhsBatch := [0, 1]
  rhsBatch := [0, 1]
  wf := dot_S16x12x1024x1024_S16x12x1024x64_S16x12x1024x64_3_2_2_3_01_01_wf

class Facts : Prop extends Facts₀ where

variable [Facts]
-- ==== Proof.BlockValue.lean ====
/-
  What one grid point leaves in the output block, as ONE function of the block's index.

  A grid point handles four heads. Its body is a loop of four trips; trip k loads slab k of the input block (a [1,1024,64]
  slice of the [4,1024,64] block), computes the head's result from that slab and the weights, and stores it as slab k of
  the output block. So the output block, at index (k, s, e), is the head's result for input slab k, read at (0, s, e):
  every stored piece is a block of that one function, the four pieces tile the block, and the block reads as the function
  everywhere.
-/
import proofs.«135089_j80272938762345_2_alg».proof.Proof.Gen.KernelIdeal.Frame
import Idealize.ShloMosaic.Lib.Pipeline.Value
import Idealize.ShloMosaic.Lib.ValueIdx

set_option maxRecDepth 16384

noncomputable section

namespace Cert.KernelIdeal.BlockValue

open Idealize.ShloMosaic Idealize.ShloMosaic.TcCoe Idealize.ShloMosaic.ValueIdx
open Idealize.SL Idealize.SL.Sem
open Cert.KernelIdeal Cert.KernelIdeal.Gen

variable {F : FTy → Type} [FloatOps F]

/-- Slab `h` of a [4,1024,64] block, as a [1,1024,64] array: entry (·, s, d) is the block's entry (h, s, d). -/
def slab (x0 : Vec F S4x1024x64 .f32) (h : Fin 4) : Vec F S1x1024x64 .f32 :=
  fun z => x0 (ix3 (n0 := 4) (n1 := 1024) (n2 := 64) h (z 1) (z 2))

/-- The output block as one function of its index: at (h, s, e), the head's result for input slab `h` at (0, s, e). -/
def blockFn (x0 : Vec F S4x1024x64 .f32) (v0 v3 v6 v9 : Vec F S64x64 .f32) (v12 v14 v16 v18 : Vec F S1x64 .f32) : S4x1024x64.Idx → Elt F .f32 :=
  fun y => k0_pay1 v0 v3 v6 v9 v12 v14 v16 v18 (slab x0 (y 0)) (ix3 (n0 := 1) (n1 := 1024) (n2 := 64) (0 : Fin 1) (y 1) (y 2))

/-- What trip `k` of the loop stores: one piece, at the trip's slab, holding the head's result for the slab it loaded. -/
theorem tripL_eq (𝒱 : Variants) (c : Dev nD) (bd : Option 𝒱.V) (i : grid0.Coords) (arg1 : Memref sig .tc .vmem S4x1024x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S4x1024x64 .f32) (harg10 : arg10.IsWhole) (v0 v3 v6 v9 : Vec F S64x64 .f32) (v12 v14 v16 v18 : Vec F S1x64 .f32)
    (X_arg1 : BufTy.Contents (Elt F) arg1.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 v0 v3 v6 v9 v12 v14 v16 v18 X_arg1 k
      = [⟨Rect.unit (s := S4x1024x64) (k0_off1 k) S1x1024x64.size (k0_off1_inb k),
          k0_pay1 v0 v3 v6 v9 v12 v14 v16 v18 (View.readAt (Elt F) arg1.view (Rect.unit (s := S4x1024x64) (k0_off1 k) S1x1024x64.size (k0_off1_inb k)).toLoadRect X_arg1)⟩] := by
  unfold tripL_k0_t1 trip_k0_t1
  rfl

/-- The run's pieces: the four trips' pieces, the weights and biases read whole from their buffers. -/
theorem runL_eq (c : Dev nD) (i : grid0.Coords) (arg1 : Memref sig .tc .vmem S4x1024x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S4x1024x64 .f32) (harg10 : arg10.IsWhole) (x0 : Vec F S4x1024x64 .f32) (x1 : Vec F S64x64 .f32) (x2 : Vec F S1x64 .f32) (x3 : Vec F S64x64 .f32) (x4 : Vec F S1x64 .f32) (x5 : Vec F S64x64 .f32) (x6 : Vec F S1x64 .f32) (x7 : Vec F S64x64 .f32) (x8 : Vec F S1x64 .f32) :
    (kernelRun0_A (F := F) c i arg1 harg1 arg2 harg2 arg3 harg3 arg4 harg4 arg5 harg5 arg6 harg6 arg7 harg7 arg8 harg8 arg9 harg9 arg10 harg10 x0 x1 x2 x3 x4 x5 x6 x7 x8).1
      = pb_k0_t1 (F := F) Variants.none c none i arg1 harg1 arg2 harg2 arg3 harg3 arg4 harg4 arg5 harg5 arg6 harg6 arg7 harg7 arg8 harg8 arg9 harg9 arg10 harg10 x1 x3 x5 x7 x2 x4 x6 x8 (harg1.unread x0) 4 := by
  unfold kernelRun0_A
  dsimp only
  have hz : (![0, 0] : Fin 2 → ℕ) = fun _ => 0 := by funext a; fin_cases a <;> rfl
  simp only [View.readAt_eq_ld, harg2.read_unread, harg3.read_unread, harg4.read_unread, harg5.read_unread,
    harg6.read_unread, harg7.read_unread, harg8.read_unread, harg9.read_unread,
    View.ld_unit_zero (S := S64x64) hz, View.ld_unit_zero (S := S1x64) hz]
  rfl

/-- A trip's piece is a block of `blockFn`: the slab the trip loads is the slab the block's first coordinate names (the
    slice has one slab, so the coordinate inside it is 0), and the other two coordinates pass through unchanged. -/
theorem piece_blockFn (k : Fin k0_t1_loop.trips) (x0 : Vec F S4x1024x64 .f32) (v0 v3 v6 v9 : Vec F S64x64 .f32) (v12 v14 v16 v18 : Vec F S1x64 .f32)
    (x : (Rect.unit (s := S4x1024x64) (k0_off1 k) S1x1024x64.size (k0_off1_inb k)).shape.Idx) :
    k0_pay1 v0 v3 v6 v9 v12 v14 v16 v18 (View.ld x0 (Rect.unit (s := S4x1024x64) (k0_off1 k) S1x1024x64.size (k0_off1_inb k))) x = blockFn x0 v0 v3 v6 v9 v12 v14 v16 v18 ((Rect.unit (s := S4x1024x64) (k0_off1 k) S1x1024x64.size (k0_off1_inb k)).emb x) := by
  unfold blockFn
  have hx0 : (x 0).val = 0 := by have h : (x 0).val < 1 := (x 0).isLt; omega
  have e1 : View.ld x0 (Rect.unit (s := S4x1024x64) (k0_off1 k) S1x1024x64.size (k0_off1_inb k)) = slab x0 (((Rect.unit (s := S4x1024x64) (k0_off1 k) S1x1024x64.size (k0_off1_inb k)).emb x) 0) := by
    funext z
    unfold slab
    have hz0 : (z 0).val = 0 := by have h : (z 0).val < 1 := (z 0).isLt; omega
    refine congrArg x0 (funext fun a => Fin.ext ?_)
    match a with
    | ⟨0, _⟩ =>
      show k0_off1 k 0 + 1 * (z 0).val = k0_off1 k 0 + 1 * (x 0).val
      rw [hz0, hx0]
    | ⟨1, _⟩ =>
      show 0 + 1 * (z 1).val = (z 1).val
      omega
    | ⟨2, _⟩ =>
      show 0 + 1 * (z 2).val = (z 2).val
      omega
  have e2 : x = ix3 (n0 := 1) (n1 := 1024) (n2 := 64) (0 : Fin 1) (((Rect.unit (s := S4x1024x64) (k0_off1 k) S1x1024x64.size (k0_off1_inb k)).emb x) 1) (((Rect.unit (s := S4x1024x64) (k0_off1 k) S1x1024x64.size (k0_off1_inb k)).emb x) 2) := by
    funext a
    refine Fin.ext ?_
    match a with
    | ⟨0, _⟩ => exact hx0
    | ⟨1, _⟩ =>
      show (x 1).val = 0 + 1 * (x 1).val
      omega
    | ⟨2, _⟩ =>
      show (x 2).val = 0 + 1 * (x 2).val
      omega
  rw [e1]
  exact congrArg _ e2

/-- The same for a piece given by an equation (so that it applies to a member of a list). -/
theorem piece_blockFn' (k : Fin k0_t1_loop.trips) (x0 : Vec F S4x1024x64 .f32) (v0 v3 v6 v9 : Vec F S64x64 .f32) (v12 v14 v16 v18 : Vec F S1x64 .f32)
    (p : View.Piece (Elt F) S4x1024x64 .f32)
    (hp : p = ⟨(Rect.unit (s := S4x1024x64) (k0_off1 k) S1x1024x64.size (k0_off1_inb k)), k0_pay1 v0 v3 v6 v9 v12 v14 v16 v18 (View.ld x0 (Rect.unit (s := S4x1024x64) (k0_off1 k) S1x1024x64.size (k0_off1_inb k)))⟩) :
    ∀ x : p.1.shape.Idx, p.2 x = blockFn x0 v0 v3 v6 v9 v12 v14 v16 v18 (p.1.emb x) := by
  subst hp
  intro x
  exact piece_blockFn k x0 v0 v3 v6 v9 v12 v14 v16 v18 x

/-- Every piece the first `n` trips store is a block of `blockFn`: by induction on the trips. -/
theorem pieces_blockFn (c : Dev nD) (i : grid0.Coords) (arg1 : Memref sig .tc .vmem S4x1024x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S4x1024x64 .f32) (harg10 : arg10.IsWhole) (x0 : Vec F S4x1024x64 .f32) (x1 : Vec F S64x64 .f32) (x2 : Vec F S1x64 .f32) (x3 : Vec F S64x64 .f32) (x4 : Vec F S1x64 .f32) (x5 : Vec F S64x64 .f32) (x6 : Vec F S1x64 .f32) (x7 : Vec F S64x64 .f32) (x8 : Vec F S1x64 .f32) (n : ℕ) :
    ∀ p ∈ pb_k0_t1 (F := F) Variants.none c none i arg1 harg1 arg2 harg2 arg3 harg3 arg4 harg4 arg5 harg5 arg6 harg6 arg7 harg7 arg8 harg8 arg9 harg9 arg10 harg10 x1 x3 x5 x7 x2 x4 x6 x8 (harg1.unread x0) n,
      ∀ x : p.1.shape.Idx, p.2 x = blockFn x0 x1 x3 x5 x7 x2 x4 x6 x8 (p.1.emb x) := by
  induction n with
  | zero =>
    intro p hp
    rw [pb_k0_t1.eq_1] at hp
    exact absurd hp List.not_mem_nil
  | succ n ih =>
    intro p hp
    rw [pb_k0_t1.eq_2] at hp
    unfold pb_k0_t1Step at hp
    by_cases hn : n < k0_t1_loop.trips
    · rw [dif_pos hn, tripL_eq, View.readAt_eq_ld, harg1.read_unread] at hp
      rcases List.mem_append.mp hp with h | h
      · exact piece_blockFn' ⟨n, hn⟩ x0 x1 x3 x5 x7 x2 x4 x6 x8 p (List.mem_singleton.mp h)
      · exact ih p h
    · rw [dif_neg hn] at hp
      exact ih p hp

/-- The output block after the body, read at any index: the pieces cover the block and each is a block of `blockFn`. -/
theorem out_apply (c : Dev nD) (i : grid0.Coords) (arg1 : Memref sig .tc .vmem S4x1024x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S4x1024x64 .f32) (harg10 : arg10.IsWhole) (x0 : Vec F S4x1024x64 .f32) (x1 : Vec F S64x64 .f32) (x2 : Vec F S1x64 .f32) (x3 : Vec F S64x64 .f32) (x4 : Vec F S1x64 .f32) (x5 : Vec F S64x64 .f32) (x6 : Vec F S1x64 .f32) (x7 : Vec F S64x64 .f32) (x8 : Vec F S1x64 .f32) (y : S4x1024x64.Idx) :
    out0_A_9 (F := F) c i arg1 harg1 arg2 harg2 arg3 harg3 arg4 harg4 arg5 harg5 arg6 harg6 arg7 harg7 arg8 harg8 arg9 harg9 arg10 harg10 x0 x1 x2 x3 x4 x5 x6 x7 x8 y = blockFn x0 x1 x3 x5 x7 x2 x4 x6 x8 y := by
  unfold out0_A_9
  rw [View.read_writes_apply_eq_canon _ _ y _ (cover0_A_9 c i arg1 harg1 arg2 harg2 arg3 harg3 arg4 harg4 arg5 harg5 arg6 harg6 arg7 harg7 arg8 harg8 arg9 harg9 arg10 harg10 x0 x1 x2 x3 x4 x5 x6 x7 x8 y)]
  refine View.canon_apply_of_pieces (blockFn x0 x1 x3 x5 x7 x2 x4 x6 x8) _ ?_ y (cover0_A_9 c i arg1 harg1 arg2 harg2 arg3 harg3 arg4 harg4 arg5 harg5 arg6 harg6 arg7 harg7 arg8 harg8 arg9 harg9 arg10 harg10 x0 x1 x2 x3 x4 x5 x6 x7 x8 y)
  rw [runL_eq]
  exact pieces_blockFn c i arg1 harg1 arg2 harg2 arg3 harg3 arg4 harg4 arg5 harg5 arg6 harg6 arg7 harg7 arg8 harg8 arg9 harg9 arg10 harg10 x0 x1 x2 x3 x4 x5 x6 x7 x8 4

end Cert.KernelIdeal.BlockValue

end
-- ==== Proof.ArrayValue.lean ====
/-
  The output array after the region, as ONE function of the arrays the region finds.

  The output [192,1024,64] is cut along its first axis into 48 blocks of 4 heads; grid point t reads block t of the input
  and writes block t of the output, and every point sees the whole weights and biases. A point's output block at (h, s, e)
  is the head's result for input slab h of its block, so the array at (g, s, e) is the head's result for input slab g:
  block t of that one function is what point t writes back, the 48 blocks tile the array, and the array ends holding it.
-/
import proofs.«135089_j80272938762345_2_alg».proof.Proof.BlockValue

set_option maxRecDepth 16384

noncomputable section

namespace Cert.KernelIdeal.ArrayValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.BlockValue

variable {F : FTy → Type} [FloatOps F]

variable (m : (ℓ : Loc nD τ sig) → Buf (Elt F) ℓ) (ρ : Dev nD → PrngReg)

/-- The output array as one function: at (g, s, e), the head's result for input slab `g` at (0, s, e). -/
def arrFn (X : S192x1024x64.Idx → Elt F .f32) (v0 v3 v6 v9 : Vec F S64x64 .f32) (v12 v14 v16 v18 : Vec F S1x64 .f32) : S192x1024x64.Idx → Elt F .f32 :=
  fun i => k0_pay1 v0 v3 v6 v9 v12 v14 v16 v18 (fun z => X (ix3 (n0 := 192) (n1 := 1024) (n2 := 64) (i 0) (z 1) (z 2)))
    (ix3 (n0 := 1) (n1 := 1024) (n2 := 64) (0 : Fin 1) (i 1) (i 2))

/-- The index maps, decided over the grid: the input's and the output's blocks move together along the first axis, at
    block index `t`, and sit at 0 on the other two; every weight and bias window stays at block (0, 0). -/
theorem idx_facts : ∀ t : Fin cfg0.N,
    win0_0.index t (0 : Fin 3) = win0_9.index t (0 : Fin 3) ∧ win0_9.index t (0 : Fin 3) = t.val
    ∧ win0_0.index t (1 : Fin 3) = 0 ∧ win0_0.index t (2 : Fin 3) = 0
    ∧ win0_9.index t (1 : Fin 3) = 0 ∧ win0_9.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Window 1's block at any point is its whole array: one block, at index (0, 0). -/
theorem iblk1_eq (c : Dev nD) (t : Fin cfg0.N) : (iblk m c 1 t : Vec F S64x64 .f32) = V m c main_v1 := by
  obtain ⟨-, -, -, -, -, -, e0, e1, -, -, -, -, -, -, -, -, -, -, -, -, -, -⟩ := idx_facts t
  funext y
  show V m c main_v1 (((cfg0.win 1).blk t).view.emb y) = V m c main_v1 y
  refine congrArg (V m c main_v1) (funext fun a => Fin.ext ?_)
  match a with
  | ⟨0, _⟩ =>
    show win0_1.index t (0 : Fin 2) * 64 + 1 * (y 0).val = (y 0).val
    rw [e0]; omega
  | ⟨1, _⟩ =>
    show win0_1.index t (1 : Fin 2) * 64 + 1 * (y 1).val = (y 1).val
    rw [e1]; omega

/-- Window 2's block at any point is its whole array: one block, at index (0, 0). -/
theorem iblk2_eq (c : Dev nD) (t : Fin cfg0.N) : (iblk m c 2 t : Vec F S1x64 .f32) = V m c main_v5 := by
  obtain ⟨-, -, -, -, -, -, -, -, e0, e1, -, -, -, -, -, -, -, -, -, -, -, -⟩ := idx_facts t
  funext y
  show V m c main_v5 (((cfg0.win 2).blk t).view.emb y) = V m c main_v5 y
  refine congrArg (V m c main_v5) (funext fun a => Fin.ext ?_)
  match a with
  | ⟨0, _⟩ =>
    show win0_2.index t (0 : Fin 2) * 1 + 1 * (y 0).val = (y 0).val
    rw [e0]; omega
  | ⟨1, _⟩ =>
    show win0_2.index t (1 : Fin 2) * 64 + 1 * (y 1).val = (y 1).val
    rw [e1]; omega

/-- Window 3's block at any point is its whole array: one block, at index (0, 0). -/
theorem iblk3_eq (c : Dev nD) (t : Fin cfg0.N) : (iblk m c 3 t : Vec F S64x64 .f32) = V m c main_v2 := by
  obtain ⟨-, -, -, -, -, -, -, -, -, -, e0, e1, -, -, -, -, -, -, -, -, -, -⟩ := idx_facts t
  funext y
  show V m c main_v2 (((cfg0.win 3).blk t).view.emb y) = V m c main_v2 y
  refine congrArg (V m c main_v2) (funext fun a => Fin.ext ?_)
  match a with
  | ⟨0, _⟩ =>
    show win0_3.index t (0 : Fin 2) * 64 + 1 * (y 0).val = (y 0).val
    rw [e0]; omega
  | ⟨1, _⟩ =>
    show win0_3.index t (1 : Fin 2) * 64 + 1 * (y 1).val = (y 1).val
    rw [e1]; omega

/-- Window 4's block at any point is its whole array: one block, at index (0, 0). -/
theorem iblk4_eq (c : Dev nD) (t : Fin cfg0.N) : (iblk m c 4 t : Vec F S1x64 .f32) = V m c main_v6 := by
  obtain ⟨-, -, -, -, -, -, -, -, -, -, -, -, e0, e1, -, -, -, -, -, -, -, -⟩ := idx_facts t
  funext y
  show V m c main_v6 (((cfg0.win 4).blk t).view.emb y) = V m c main_v6 y
  refine congrArg (V m c main_v6) (funext fun a => Fin.ext ?_)
  match a with
  | ⟨0, _⟩ =>
    show win0_4.index t (0 : Fin 2) * 1 + 1 * (y 0).val = (y 0).val
    rw [e0]; omega
  | ⟨1, _⟩ =>
    show win0_4.index t (1 : Fin 2) * 64 + 1 * (y 1).val = (y 1).val
    rw [e1]; omega

/-- Window 5's block at any point is its whole array: one block, at index (0, 0). -/
theorem iblk5_eq (c : Dev nD) (t : Fin cfg0.N) : (iblk m c 5 t : Vec F S64x64 .f32) = V m c main_v3 := by
  obtain ⟨-, -, -, -, -, -, -, -, -, -, -, -, -, -, e0, e1, -, -, -, -, -, -⟩ := idx_facts t
  funext y
  show V m c main_v3 (((cfg0.win 5).blk t).view.emb y) = V m c main_v3 y
  refine congrArg (V m c main_v3) (funext fun a => Fin.ext ?_)
  match a with
  | ⟨0, _⟩ =>
    show win0_5.index t (0 : Fin 2) * 64 + 1 * (y 0).val = (y 0).val
    rw [e0]; omega
  | ⟨1, _⟩ =>
    show win0_5.index t (1 : Fin 2) * 64 + 1 * (y 1).val = (y 1).val
    rw [e1]; omega

/-- Window 6's block at any point is its whole array: one block, at index (0, 0). -/
theorem iblk6_eq (c : Dev nD) (t : Fin cfg0.N) : (iblk m c 6 t : Vec F S1x64 .f32) = V m c main_v7 := by
  obtain ⟨-, -, -, -, -, -, -, -, -, -, -, -, -, -, -, -, e0, e1, -, -, -, -⟩ := idx_facts t
  funext y
  show V m c main_v7 (((cfg0.win 6).blk t).view.emb y) = V m c main_v7 y
  refine congrArg (V m c main_v7) (funext fun a => Fin.ext ?_)
  match a with
  | ⟨0, _⟩ =>
    show win0_6.index t (0 : Fin 2) * 1 + 1 * (y 0).val = (y 0).val
    rw [e0]; omega
  | ⟨1, _⟩ =>
    show win0_6.index t (1 : Fin 2) * 64 + 1 * (y 1).val = (y 1).val
    rw [e1]; omega

/-- Window 7's block at any point is its whole array: one block, at index (0, 0). -/
theorem iblk7_eq (c : Dev nD) (t : Fin cfg0.N) : (iblk m c 7 t : Vec F S64x64 .f32) = V m c main_v4 := by
  obtain ⟨-, -, -, -, -, -, -, -, -, -, -, -, -, -, -, -, -, -, e0, e1, -, -⟩ := idx_facts t
  funext y
  show V m c main_v4 (((cfg0.win 7).blk t).view.emb y) = V m c main_v4 y
  refine congrArg (V m c main_v4) (funext fun a => Fin.ext ?_)
  match a with
  | ⟨0, _⟩ =>
    show win0_7.index t (0 : Fin 2) * 64 + 1 * (y 0).val = (y 0).val
    rw [e0]; omega
  | ⟨1, _⟩ =>
    show win0_7.index t (1 : Fin 2) * 64 + 1 * (y 1).val = (y 1).val
    rw [e1]; omega

/-- Window 8's block at any point is its whole array: one block, at index (0, 0). -/
theorem iblk8_eq (c : Dev nD) (t : Fin cfg0.N) : (iblk m c 8 t : Vec F S1x64 .f32) = V m c main_v8 := by
  obtain ⟨-, -, -, -, -, -, -, -, -, -, -, -, -, -, -, -, -, -, -, -, e0, e1⟩ := idx_facts t
  funext y
  show V m c main_v8 (((cfg0.win 8).blk t).view.emb y) = V m c main_v8 y
  refine congrArg (V m c main_v8) (funext fun a => Fin.ext ?_)
  match a with
  | ⟨0, _⟩ =>
    show win0_8.index t (0 : Fin 2) * 1 + 1 * (y 0).val = (y 0).val
    rw [e0]; omega
  | ⟨1, _⟩ =>
    show win0_8.index t (1 : Fin 2) * 64 + 1 * (y 1).val = (y 1).val
    rw [e1]; omega

/-- What point `t` writes back is block `t` of `arrFn` of the arrays the region finds: its input block's slab `h` is the
    input array's slab `4t + h`, which is the slab the output block's element (h, s, e) names in the array. -/
theorem flushed_eq (c : Dev nD) (t : Fin cfg0.N) :
    (dats m 0 c).flushed 9 t = ((cfg0.win 9).blk t).view.read (Elt F) (arrFn (V m c main_v0) (V m c main_v1) (V m c main_v2) (V m c main_v3) (V m c main_v4) (V m c main_v5) (V m c main_v6) (V m c main_v7) (V m c main_v8)) := by
  show (cfg0.win 9).cut (grid0.coords t) ((dats m 0 c).after 9 t) = _
  rw [after0_9]
  obtain ⟨e00, -, e01, e02, e91, e92, -, -, -, -, -, -, -, -, -, -, -, -, -, -, -, -⟩ := idx_facts t
  funext j
  show outsAt0 m c t j = arrFn (V m c main_v0) (V m c main_v1) (V m c main_v2) (V m c main_v3) (V m c main_v4) (V m c main_v5) (V m c main_v6) (V m c main_v7) (V m c main_v8) (((cfg0.win 9).blk t).view.emb j)
  unfold outsAt0
  refine (out_apply (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) (iblk m c 8 t) j).trans ?_
  unfold blockFn arrFn
  rw [iblk1_eq, iblk2_eq, iblk3_eq, iblk4_eq, iblk5_eq, iblk6_eq, iblk7_eq, iblk8_eq]
  have hs : slab (iblk m c 0 t) (j 0)
      = fun z => V m c main_v0 (ix3 (n0 := 192) (n1 := 1024) (n2 := 64) ((((cfg0.win 9).blk t).view.emb j) 0) (z 1) (z 2)) := by
    funext z
    unfold slab
    show V m c main_v0 (((cfg0.win 0).blk t).view.emb (ix3 (n0 := 4) (n1 := 1024) (n2 := 64) (j 0) (z 1) (z 2))) = _
    refine congrArg (V m c main_v0) (funext fun a => Fin.ext ?_)
    match a with
    | ⟨0, _⟩ =>
      show win0_0.index t (0 : Fin 3) * 4 + 1 * (j 0).val = win0_9.index t (0 : Fin 3) * 4 + 1 * (j 0).val
      rw [e00]
    | ⟨1, _⟩ =>
      show win0_0.index t (1 : Fin 3) * 1024 + 1 * (z 1).val = (z 1).val
      rw [e01]; omega
    | ⟨2, _⟩ =>
      show win0_0.index t (2 : Fin 3) * 64 + 1 * (z 2).val = (z 2).val
      rw [e02]; omega
  have hi : ix3 (n0 := 1) (n1 := 1024) (n2 := 64) (0 : Fin 1) (j 1) (j 2)
      = ix3 (n0 := 1) (n1 := 1024) (n2 := 64) (0 : Fin 1) ((((cfg0.win 9).blk t).view.emb j) 1) ((((cfg0.win 9).blk t).view.emb j) 2) := by
    funext a
    refine Fin.ext ?_
    match a with
    | ⟨0, _⟩ => rfl
    | ⟨1, _⟩ =>
      show (j 1).val = win0_9.index t (1 : Fin 3) * 1024 + 1 * (j 1).val
      rw [e91]; omega
    | ⟨2, _⟩ =>
      show (j 2).val = win0_9.index t (2 : Fin 3) * 64 + 1 * (j 2).val
      rw [e92]; omega
  rw [hs, hi]

/-- An index of the array is in point `t`'s block iff each coordinate is in the block's range on its axis. -/
theorem mem_blk (t : Fin cfg0.N) (i : S192x1024x64.Idx) :
    i ∈ ((cfg0.win 9).blk t).view.set ↔ ∀ a : Fin 3, win0_9.index t a * S4x1024x64.size a ≤ (i a).val
      ∧ (i a).val < win0_9.index t a * S4x1024x64.size a + S4x1024x64.size a := by
  show i ∈ ((View.whole main_v9).slice (win0_9.rect t)).set ↔ _
  rw [View.set_slice_whole, Rect.mem_set_unit]
  exact Iff.rfl

/-- The 48 blocks tile the array: row `g` of the first axis is in block `g / 4`. -/
theorem cover (i : S192x1024x64.Idx) :
    ∃ t : Fin cfg0.N, (cfg0.win 9).flush t = true ∧ i ∈ ((cfg0.win 9).blk t).view.set := by
  have hN : grid0.N = 48 := N_0
  have hi0 : (i 0).val < 192 := (i 0).isLt
  have hi1 : (i 1).val < 1024 := (i 1).isLt
  have hi2 : (i 2).val < 64 := (i 2).isLt
  have ht : (i 0).val / 4 < cfg0.N := by show (i 0).val / 4 < grid0.N; rw [hN]; omega
  obtain ⟨-, e9t, -, -, e91, e92, -, -, -, -, -, -, -, -, -, -, -, -, -, -, -, -⟩ := idx_facts ⟨(i 0).val / 4, ht⟩
  refine ⟨⟨(i 0).val / 4, ht⟩, flush0_9 _, ?_⟩
  rw [mem_blk]
  intro a
  match a with
  | ⟨0, _⟩ =>
    show win0_9.index ⟨(i 0).val / 4, ht⟩ (0 : Fin 3) * 4 ≤ (i 0).val ∧ (i 0).val < win0_9.index ⟨(i 0).val / 4, ht⟩ (0 : Fin 3) * 4 + 4
    rw [e9t]
    show (i 0).val / 4 * 4 ≤ (i 0).val ∧ (i 0).val < (i 0).val / 4 * 4 + 4
    omega
  | ⟨1, _⟩ =>
    show win0_9.index ⟨(i 0).val / 4, ht⟩ (1 : Fin 3) * 1024 ≤ (i 1).val ∧ (i 1).val < win0_9.index ⟨(i 0).val / 4, ht⟩ (1 : Fin 3) * 1024 + 1024
    rw [e91]; omega
  | ⟨2, _⟩ =>
    show win0_9.index ⟨(i 0).val / 4, ht⟩ (2 : Fin 3) * 64 ≤ (i 2).val ∧ (i 2).val < win0_9.index ⟨(i 0).val / 4, ht⟩ (2 : Fin 3) * 64 + 64
    rw [e92]; omega

/-- The output array after the region: `arrFn` of the arrays the region finds. -/
theorem final (c : Dev nD) :
    (dats m 0 c).arrAt 9 cfg0.N = arrFn (V m c main_v0) (V m c main_v1) (V m c main_v2) (V m c main_v3) (V m c main_v4) (V m c main_v5) (V m c main_v6) (V m c main_v7) (V m c main_v8) :=
  (dats m 0 c).arrAt_eq_of_cover 9 _ (fun t _ => flushed_eq m c t) cover

end Cert.KernelIdeal.ArrayValue

end
-- ==== Proof.HeadSpec.lean ====
/-
  One attention head as a function on plain index types, over the extended reals.

  For a head with 1024 positions and width 64: the three projections q, k, v of the input rows (x Wᵀ + b), the scores
  q kᵀ passed through a scale, a softmax along each row (subtract the row's maximum, exponentiate, divide by the row's sum),
  the weighted sum of the rows of v, and the output projection. The scale is a parameter: one program multiplies the score
  by 1/8, the other divides it by the square root of 64, and `scale_eq` says these are one function on every extended
  real, infinities included (√64 = 8, and dividing by the real 8 is multiplying by the real 1/8).
  Every sum is a sum over a finite index type and the row maximum a fold of `max` from -∞, so no order of evaluation
  is left in the definition.
-/
import Idealize.ShloMosaic.PureOps.Ideal
import Idealize.ShloMosaic.PureOps.Ideal.Laws

noncomputable section

namespace Cert.HeadSpec

open Idealize.ShloMosaic

/-- Rows times the transposed weights plus the bias: entry (s, e) is ∑_d X(s,d) · W(e,d) + b(e). -/
def proj {n : ℕ} (X : Fin n → Fin 64 → EReal) (W : Fin 64 → Fin 64 → EReal) (b : Fin 64 → EReal) :
    Fin n → Fin 64 → EReal :=
  fun s e => (∑ d : Fin 64, X s d * W e d) + b e

/-- The scores before scaling: entry (s, t) is ∑_d q(s,d) · k(t,d). -/
def qk (q k : Fin 1024 → Fin 64 → EReal) : Fin 1024 → Fin 1024 → EReal :=
  fun s t => ∑ d : Fin 64, q s d * k t d

/-- The maximum of row s of the scores, folded from -∞. -/
def rowMax (sc : Fin 1024 → Fin 1024 → EReal) (s : Fin 1024) : EReal :=
  (Finset.univ : Finset (Fin 1024)).fold max ⊥ (fun t => sc s t)

/-- The unnormalised softmax weight exp(sc(s,t) − max of row s). -/
def weight (sc : Fin 1024 → Fin 1024 → EReal) (s t : Fin 1024) : EReal :=
  Ideal.exp (sc s t - rowMax sc s)

/-- The row's normaliser: the sum of its weights. -/
def norm (sc : Fin 1024 → Fin 1024 → EReal) (s : Fin 1024) : EReal :=
  ∑ t : Fin 1024, weight sc s t

/-- The softmax weight: each weight divided by its row's normaliser. -/
def attn (sc : Fin 1024 → Fin 1024 → EReal) (s t : Fin 1024) : EReal :=
  Ideal.div (weight sc s t) (norm sc s)

/-- The rows of v mixed by the softmax weights: entry (s, d) is ∑_t attn(s,t) · v(t,d). -/
def mix (sc : Fin 1024 → Fin 1024 → EReal) (v : Fin 1024 → Fin 64 → EReal) : Fin 1024 → Fin 64 → EReal :=
  fun s d => ∑ t : Fin 1024, attn sc s t * v t d

/-- One head: project, score, scale, softmax, mix, project. -/
def head (scale : EReal → EReal) (X : Fin 1024 → Fin 64 → EReal)
    (Wq : Fin 64 → Fin 64 → EReal) (bq : Fin 64 → EReal) (Wk : Fin 64 → Fin 64 → EReal) (bk : Fin 64 → EReal)
    (Wv : Fin 64 → Fin 64 → EReal) (bv : Fin 64 → EReal) (Wo : Fin 64 → Fin 64 → EReal) (bo : Fin 64 → EReal) :
    Fin 1024 → Fin 64 → EReal :=
  proj (mix (fun s t => scale (qk (proj X Wq bq) (proj X Wk bk) s t)) (proj X Wv bv)) Wo bo

/-- Scaling a score by the f32 constant 0.125. -/
def scaleMul (a : EReal) : EReal := a * Ideal.ofBits .f32 0x3E000000#32

/-- Scaling a score by dividing by the square root of the f32 constant 64. -/
def scaleDiv (a : EReal) : EReal := Ideal.div a (Ideal.sqrt (Ideal.ofBits .f32 0x42800000#32))

/-- The f32 pattern 0x3E000000 is the real 1/8. -/
theorem ofBits_eighth : Ideal.ofBits .f32 0x3E000000#32 = ((1 / 8 : ℝ) : EReal) := by
  simp [Ideal.ofBits, Ideal.ieee, -EReal.coe_mul]; norm_num

/-- The f32 pattern 0x42800000 is the real 64. -/
theorem ofBits_64 : Ideal.ofBits .f32 0x42800000#32 = ((64 : ℝ) : EReal) := by
  simp [Ideal.ofBits, Ideal.ieee, -EReal.coe_mul]; norm_num

/-- The f32 pattern of -∞ is the bottom of the extended reals: the start of a row's maximum. -/
theorem ofBits_neg_inf : Ideal.ofBits .f32 0xFF800000#32 = (⊥ : EReal) := by
  simp [Ideal.ofBits, Ideal.ieee]

/-- The square root of the real 64 is the real 8. -/
theorem sqrt_64 : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-- Multiplying by 1/8 and dividing by √64 are one function on the extended reals. -/
theorem scale_eq : scaleMul = scaleDiv := by
  funext a
  unfold scaleMul scaleDiv
  rw [ofBits_eighth, ofBits_64, sqrt_64, Ideal.div_coe (by norm_num : (8 : ℝ) ≠ 0)]

end Cert.HeadSpec

end
-- ==== Proof.LibRowOps.lean ====
/-
  Rows of a matrix reduced along their lanes, and a column of per-row values spread back over the lanes, each read at an
  index written by its coordinates.

  A softmax over the lanes of an `[a, b]` matrix takes, row by row, a maximum and a sum over the `b` lanes, and
  gives each back to every lane of its row (a vector `[a]` cast to a column `[a, 1]`, then broadcast to `[a, b]`).
  At the ideal values the lane maximum at row `p` is the fold of `max` over `c : Fin b` of the entries `(p, c)`, the
  lane sum the sum over `c` of them, and the spread column reads, at `(p, c)`, the vector at `p`.
  The host's reduction over the MIDDLE axis of an `[n, a, b]` array (a softmax over axis 1) is read the same way:
  at `(k, c)` the fold over `p : Fin a` of the entries `(k, p, c)`.
-/
import Idealize.ShloMosaic.PureOps.Ideal.Laws
import Idealize.ShloMosaic.Lib.Pipeline.Value
import Idealize.ShloMosaic.Lib.ValueIdx

namespace Cert.RowOps

open Idealize.ShloMosaic Idealize.ShloMosaic.ValueIdx

/-- A vector `[a]` cast to the column `[a, 1]` and broadcast over `b` lanes reads, at `(p, c)`, the vector at `p`:
    the column's one lane is lane `0`, and row `p` of the column is entry `p` of the vector. -/
theorem spreadColumn_apply {α : Type} {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ x h1) h2 (ix2 p c) = x (ix1 p) := by
  refine (broadcastTo_apply _ h2 (ix2 p c) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else c.val
      rw [if_pos rfl]
  · exact shapeCast_apply x h1 _ _ (by
      rw [Shape.rowMajor_val_one, Shape.rowMajor_val_two]
      show p.val = p.val * 1 + 0
      omega)

variable {φ : FTy}

/-- The lane maximum of row `p`: the fold of `max`, from the accumulator's value, over the row's `b` entries. -/
theorem laneMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  show (Finset.univ : Finset (Fin b)).fold max (Ideal.ofBits φ acc) (fun c => src (h.lift (ix1 p) c)) = _
  refine congrArg (fun f => (Finset.univ : Finset (Fin b)).fold max (Ideal.ofBits φ acc) f) (funext fun c => ?_)
  exact congrArg src (funext fun ax => Fin.ext (by match ax with | ⟨0, _⟩ => rfl | ⟨1, _⟩ => rfl))

/-- The lane sum of row `p`: the sum of the row's `b` entries. -/
theorem laneSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  show ∑ c : Fin b, src (h.lift (ix1 p) c) = _
  refine Finset.sum_congr rfl fun c _ => ?_
  exact congrArg src (funext fun ax => Fin.ext (by match ax with | ⟨0, _⟩ => rfl | ⟨1, _⟩ => rfl))

/-- The host's maximum over the MIDDLE axis of an `[n, a, b]` array, at `(k, c)`: the fold of `max`, from the initial
    value, over `p : Fin a` of the entries `(k, p, c)`. -/
theorem hostMidMax_apply {n a b : ℕ} {u : Shape} (x : (⟨3, ![n, a, b]⟩ : Shape).Idx → Ideal φ) (init : u.Idx → Ideal φ)
    (h' : (⟨3, ![n, a, b]⟩ : Shape).ReducesTo [1] ⟨2, ![n, b]⟩) (h : (⟨3, ![n, a, b]⟩ : Shape).Reduces [1] ⟨2, ![n, b]⟩)
    (hu : 0 < u.numel) (k : Fin n) (c : Fin b) :
    Host.reduce (FloatOps.maximumf (F := Ideal) (φ := φ)) x init h' hu (ix2 k c)
      = (Finset.univ : Finset (Fin a)).fold max (init (Shape.Idx.first hu)) (fun p => x (ix3 k p c)) := by
  refine (Host.reduce_eq_fold_single (FloatOps.maximumf (F := Ideal) (φ := φ)) x init h' h hu (ix2 k c)).trans ?_
  show (Finset.univ : Finset (Fin a)).fold max (init (Shape.Idx.first hu)) (fun p => x (h.lift (ix2 k c) p)) = _
  refine congrArg (fun f => (Finset.univ : Finset (Fin a)).fold max (init (Shape.Idx.first hu)) f) (funext fun p => ?_)
  exact congrArg x (funext fun ax => Fin.ext (by match ax with | ⟨0, _⟩ => rfl | ⟨1, _⟩ => rfl | ⟨2, _⟩ => rfl))

end Cert.RowOps
-- ==== Proof.PayHead.lean ====
/-
  The kernel's payload for one head, read at an index.

  The generated payload `k0_pay1` is one pure term: the slab [1, 1024, 64] of one head's input rows is cast to
  [1024, 64]; q, k, v are the rows times the loaded weight matrices plus the bias rows; the scores are q against k along
  the width, times the scale constant; each row of scores is softmaxed (its maximum subtracted, exponentiated, divided by
  the row's sum); the rows of v are mixed by the softmax weights; the result is projected once more and cast back to a
  slab. At the ideal values every change of format is the identity and every matrix product into a zero accumulator is a
  plain finite sum, so entry (0, s, e) of the payload is the specification's `HeadSpec.head` at (s, e).

  The loaded weight matrices are already the transposes: the rows-times-matrix product contracts the matrix's FIRST axis,
  so the specification's W(e, d) is the loaded matrix at (d, e).

  The file goes in three steps: (1) each of the three matrix products read at an index as a sum over one coordinate;
  (2) each stage of the kernel as a function of the vectors it reads, with its entry at an index stated through the
  specification's functions; (3) the payload as the composition of the stages, and the composition's entry as the
  specification's head, the summands rewritten under the sums.
-/
import proofs.«135089_j80272938762345_2_alg».proof.Proof.Gen.KernelIdeal.Skeleton
import proofs.«135089_j80272938762345_2_alg».proof.Proof.HeadSpec
import proofs.«135089_j80272938762345_2_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.PayHead

open Idealize.ShloMosaic Idealize.ShloMosaic.ValueIdx Cert.KernelIdeal Cert.KernelIdeal.Gen

/-! ## The three matrix products, each read at an index as a plain sum -/

/-- The left operand's row coordinate of rows × matrix is the output's row. -/
theorem projL0 (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide),
    dif_pos (show (0 : Fin S1024x64.rank) ∈ dot_S1024x64_S64x64_S1024x64_1_0_0_1_n_n.lhsNonContracting by decide)]
  rfl

/-- The right operand's column coordinate of rows × matrix is the output's column. -/
theorem projR1 (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide),
    dif_pos (show (1 : Fin S64x64.rank) ∈ dot_S1024x64_S64x64_S1024x64_1_0_0_1_n_n.rhsNonContracting by decide)]
  rfl

/-- Rows times a matrix: entry (s, e) of the product of a [1024, 64] array with a [64, 64] array, into a zero
    accumulator, is the sum over the contracted coordinate d of A(s, d) · B(d, e). -/
theorem mmProj_apply {φ₁ φ₂ : FTy} (A : FVec Ideal S1024x64 φ₁) (B : FVec Ideal S64x64 φ₂) (s : Fin 1024) (e : Fin 64) :
    matmul dot_S1024x64_S64x64_S1024x64_1_0_0_1_n_n none A B (constant S1024x64 .f32 0x00000000#32) (ix2 s e)
      = ∑ d : Fin 64, A (ix2 s d) * B (ix2 d e) := by
  refine (Ideal.matmul_constant_zero_apply dot_S1024x64_S64x64_S1024x64_1_0_0_1_n_n none A B (ix2 s e)).trans ?_
  rw [← Equiv.sum_comp (contrEquiv1 dot_S1024x64_S64x64_S1024x64_1_0_0_1_n_n 64 rfl rfl).symm]
  refine Finset.sum_congr rfl fun d _ => ?_
  have hd := contrEquiv1_symm_val dot_S1024x64_S64x64_S1024x64_1_0_0_1_n_n 64 rfl rfl d
  have el : dot_S1024x64_S64x64_S1024x64_1_0_0_1_n_n.lhsIdx (ix2 s e)
      ((contrEquiv1 dot_S1024x64_S64x64_S1024x64_1_0_0_1_n_n 64 rfl rfl).symm d) = ix2 s d := funext fun a => Fin.ext (by
    match a with
    | ⟨0, _⟩ => exact projL0 _ _
    | ⟨1, _⟩ => exact (dot_S1024x64_S64x64_S1024x64_1_0_0_1_n_n.lhsIdx_val_of_single rfl _ _).trans hd)
  have er : dot_S1024x64_S64x64_S1024x64_1_0_0_1_n_n.rhsIdx (ix2 s e)
      ((contrEquiv1 dot_S1024x64_S64x64_S1024x64_1_0_0_1_n_n 64 rfl rfl).symm d) = ix2 d e := funext fun a => Fin.ext (by
    match a with
    | ⟨0, _⟩ => exact (dot_S1024x64_S64x64_S1024x64_1_0_0_1_n_n.rhsIdx_val_of_single rfl _ _).trans hd
    | ⟨1, _⟩ => exact projR1 _ _)
  rw [el, er]

/-- The left operand's row coordinate of q · kᵀ is the output's row. -/
theorem qkL0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide),
    dif_pos (show (0 : Fin S1024x64.rank) ∈ dot_S1024x64_S1024x64_S1024x1024_1_1_0_0_n_n.lhsNonContracting by decide)]
  rfl

/-- The right operand's row coordinate of q · kᵀ is the output's column. -/
theorem qkR0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide),
    dif_pos (show (0 : Fin S1024x64.rank) ∈ dot_S1024x64_S1024x64_S1024x1024_1_1_0_0_n_n.rhsNonContracting by decide)]
  rfl

/-- Rows against rows: entry (s, t) of the product of two [1024, 64] arrays contracted along the second axis of both,
    into a zero accumulator, is the sum over d of Q(s, d) · K(t, d). -/
theorem mmQK_apply {φ₁ φ₂ : FTy} (Q : FVec Ideal S1024x64 φ₁) (K : FVec Ideal S1024x64 φ₂) (s t : Fin 1024) :
    matmul dot_S1024x64_S1024x64_S1024x1024_1_1_0_0_n_n none Q K (constant S1024x1024 .f32 0x00000000#32) (ix2 s t)
      = ∑ d : Fin 64, Q (ix2 s d) * K (ix2 t d) := by
  refine (Ideal.matmul_constant_zero_apply dot_S1024x64_S1024x64_S1024x1024_1_1_0_0_n_n none Q K (ix2 s t)).trans ?_
  rw [← Equiv.sum_comp (contrEquiv1 dot_S1024x64_S1024x64_S1024x1024_1_1_0_0_n_n 64 rfl rfl).symm]
  refine Finset.sum_congr rfl fun d _ => ?_
  have hd := contrEquiv1_symm_val dot_S1024x64_S1024x64_S1024x1024_1_1_0_0_n_n 64 rfl rfl d
  have el : dot_S1024x64_S1024x64_S1024x1024_1_1_0_0_n_n.lhsIdx (ix2 s t)
      ((contrEquiv1 dot_S1024x64_S1024x64_S1024x1024_1_1_0_0_n_n 64 rfl rfl).symm d) = ix2 s d := funext fun a => Fin.ext (by
    match a with
    | ⟨0, _⟩ => exact qkL0 _ _
    | ⟨1, _⟩ => exact (dot_S1024x64_S1024x64_S1024x1024_1_1_0_0_n_n.lhsIdx_val_of_single rfl _ _).trans hd)
  have er : dot_S1024x64_S1024x64_S1024x1024_1_1_0_0_n_n.rhsIdx (ix2 s t)
      ((contrEquiv1 dot_S1024x64_S1024x64_S1024x1024_1_1_0_0_n_n 64 rfl rfl).symm d) = ix2 t d := funext fun a => Fin.ext (by
    match a with
    | ⟨0, _⟩ => exact qkR0 _ _
    | ⟨1, _⟩ => exact (dot_S1024x64_S1024x64_S1024x1024_1_1_0_0_n_n.rhsIdx_val_of_single rfl _ _).trans hd)
  rw [el, er]

/-- The left operand's row coordinate of weights × rows is the output's row. -/
theorem avL0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl

/-- The right operand's column coordinate of weights × rows is the output's column. -/
theorem avR1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl

/-- Weights times rows: entry (s, d) of the product of a [1024, 1024] array with a [1024, 64] array, into a zero
    accumulator, is the sum over the contracted coordinate t of P(s, t) · V(t, d). -/
theorem mmAV_apply {φ₁ φ₂ : FTy} (P : FVec Ideal S1024x1024 φ₁) (V : FVec Ideal S1024x64 φ₂) (s : Fin 1024) (d : Fin 64) :
    matmul dot_S1024x1024_S1024x64_S1024x64_1_0_0_1_n_n none P V (constant S1024x64 .f32 0x00000000#32) (ix2 s d)
      = ∑ t : Fin 1024, P (ix2 s t) * V (ix2 t d) := by
  refine (Ideal.matmul_constant_zero_apply dot_S1024x1024_S1024x64_S1024x64_1_0_0_1_n_n none P V (ix2 s d)).trans ?_
  rw [← Equiv.sum_comp (contrEquiv1 dot_S1024x1024_S1024x64_S1024x64_1_0_0_1_n_n 1024 rfl rfl).symm]
  refine Finset.sum_congr rfl fun t _ => ?_
  have ht := contrEquiv1_symm_val dot_S1024x1024_S1024x64_S1024x64_1_0_0_1_n_n 1024 rfl rfl t
  have el : dot_S1024x1024_S1024x64_S1024x64_1_0_0_1_n_n.lhsIdx (ix2 s d)
      ((contrEquiv1 dot_S1024x1024_S1024x64_S1024x64_1_0_0_1_n_n 1024 rfl rfl).symm t) = ix2 s t := funext fun a => Fin.ext (by
    match a with
    | ⟨0, _⟩ => exact avL0 _ _
    | ⟨1, _⟩ => exact (dot_S1024x1024_S1024x64_S1024x64_1_0_0_1_n_n.lhsIdx_val_of_single rfl _ _).trans ht)
  have er : dot_S1024x1024_S1024x64_S1024x64_1_0_0_1_n_n.rhsIdx (ix2 s d)
      ((contrEquiv1 dot_S1024x1024_S1024x64_S1024x64_1_0_0_1_n_n 1024 rfl rfl).symm t) = ix2 t d := funext fun a => Fin.ext (by
    match a with
    | ⟨0, _⟩ => exact (dot_S1024x1024_S1024x64_S1024x64_1_0_0_1_n_n.rhsIdx_val_of_single rfl _ _).trans ht
    | ⟨1, _⟩ => exact avR1 _ _)
  rw [el, er]

/-! ## The kernel's stages, each a function of the vectors it reads, and each read at an index -/

/-- A projection stage: the rows times the loaded weights (the transposed matrix, as loaded), plus the bias row spread
    over the rows. -/
def projVec (x : FVec Ideal S1024x64 .bf16) (w : Vec Ideal S64x64 .f32) (b : Vec Ideal S1x64 .f32) :
    FVec Ideal S1024x64 .f32 :=
  addf (matmul dot_S1024x64_S64x64_S1024x64_1_0_0_1_n_n none x
      (truncf .bf16 (shapeCast S64x64 w shapeCasts_S64x64_S64x64) bitsLt_bf16_f32)
      (constant S1024x64 .f32 0x00000000#32))
    (broadcastTo S1024x64 (shapeCast S1x64 b shapeCasts_S1x64_S1x64) broadcasts_S1x64_S1024x64)

/-- Entry (s, e) of a projection stage is ∑_d x(s, d) · w(d, e) + b(0, e): the specification's projection with the
    weight matrix read transposed, W(e, d) = w(d, e). -/
theorem projVec_apply (x : FVec Ideal S1024x64 .bf16) (w : Vec Ideal S64x64 .f32) (b : Vec Ideal S1x64 .f32)
    (s : Fin 1024) (e : Fin 64) :
    projVec x w b (ix2 s e)
      = HeadSpec.proj (fun s d => x (ix2 s d)) (fun e d => w (ix2 d e)) (fun e => b (ix2 (0 : Fin 1) e)) s e := by
  unfold projVec HeadSpec.proj
  refine (addf_apply _ _ _).trans ?_
  refine congrArg₂ (· + ·) ((mmProj_apply _ _ s e).trans ?_) ((broadcastTo_1b_ab_apply _ _ s e).trans ?_)
  · rw [shapeCast_self]; rfl
  · rw [shapeCast_self]

/-- The scaled scores: q against k along the width, times the scale constant. -/
def scoreVec (q k : FVec Ideal S1024x64 .f32) : FVec Ideal S1024x1024 .f32 :=
  mulf (matmul dot_S1024x64_S1024x64_S1024x1024_1_1_0_0_n_n none (truncf .bf16 q bitsLt_bf16_f32)
      (truncf .bf16 k bitsLt_bf16_f32) (constant S1024x1024 .f32 0x00000000#32))
    (broadcast S1024x1024 (Scalar.ofBits .f32 0x3E000000#32))

/-- Entry (s, t) of the scaled scores is (∑_d q(s, d) · k(t, d)) times the scale constant. -/
theorem scoreVec_apply (q k : FVec Ideal S1024x64 .f32) (s t : Fin 1024) :
    scoreVec q k (ix2 s t)
      = HeadSpec.scaleMul (HeadSpec.qk (fun s d => q (ix2 s d)) (fun t d => k (ix2 t d)) s t) := by
  unfold scoreVec HeadSpec.scaleMul HeadSpec.qk
  refine (mulf_apply _ _ _).trans ?_
  exact congrArg₂ (· * ·) (mmQK_apply _ _ s t) rfl

/-- The unnormalised softmax weights: the exponential of each score less its row's maximum. -/
def expVec (sc : FVec Ideal S1024x1024 .f32) : FVec Ideal S1024x1024 .f32 :=
  exp (subf sc (broadcastTo S1024x1024
    (shapeCast S1024x1 (multiReduction .maximumf [1] S1024 sc 0xFF800000#32 reduces_S1024x1024_S1024 (.inl rfl) rfl)
      shapeCasts_S1024_S1024x1) broadcasts_S1024x1_S1024x1024))

/-- Entry (s, t) of the weights is exp(sc(s, t) − max over row s), the row's maximum folded from −∞. -/
theorem expVec_apply (sc : FVec Ideal S1024x1024 .f32) (s t : Fin 1024) :
    expVec sc (ix2 s t) = HeadSpec.weight (fun s t => sc (ix2 s t)) s t := by
  unfold expVec HeadSpec.weight HeadSpec.rowMax
  show Ideal.exp (sc (ix2 s t) - _) = _
  refine congrArg (fun m => Ideal.exp (sc (ix2 s t) - m)) ?_
  refine (Cert.RowOps.spreadColumn_apply _ _ _ s t).trans ((Cert.RowOps.laneMax_apply sc _ _ _ _ s).trans ?_)
  rw [HeadSpec.ofBits_neg_inf]

/-- The softmax weights: each unnormalised weight divided by its row's sum. -/
def softVec (sc : FVec Ideal S1024x1024 .f32) : FVec Ideal S1024x1024 .f32 :=
  divf (expVec sc) (broadcastTo S1024x1024
    (shapeCast S1024x1 (multiReduction .add [1] S1024 (expVec sc) 0x00000000#32 reduces_S1024x1024_S1024 (.inl rfl) rfl)
      shapeCasts_S1024_S1024x1) broadcasts_S1024x1_S1024x1024)

/-- Entry (s, t) of the softmax weights is the weight at (s, t) divided by the sum of row s's weights. -/
theorem softVec_apply (sc : FVec Ideal S1024x1024 .f32) (s t : Fin 1024) :
    softVec sc (ix2 s t) = HeadSpec.attn (fun s t => sc (ix2 s t)) s t := by
  unfold softVec HeadSpec.attn HeadSpec.norm
  refine (divf_apply _ _ _).trans ?_
  refine congrArg₂ Ideal.div (expVec_apply sc s t)
    ((Cert.RowOps.spreadColumn_apply _ _ _ s t).trans ((Cert.RowOps.laneSum_apply (expVec sc) _ _ _ _ s).trans ?_))
  exact Finset.sum_congr rfl fun u _ => expVec_apply sc s u

/-- The rows of v mixed by the softmax weights. -/
def mixVec (a : FVec Ideal S1024x1024 .f32) (v : FVec Ideal S1024x64 .f32) : FVec Ideal S1024x64 .f32 :=
  matmul dot_S1024x1024_S1024x64_S1024x64_1_0_0_1_n_n none (truncf .bf16 a bitsLt_bf16_f32)
    (truncf .bf16 v bitsLt_bf16_f32) (constant S1024x64 .f32 0x00000000#32)

/-- Entry (s, d) of the mixed rows is ∑_t a(s, t) · v(t, d). -/
theorem mixVec_apply (a : FVec Ideal S1024x1024 .f32) (v : FVec Ideal S1024x64 .f32) (s : Fin 1024) (d : Fin 64) :
    mixVec a v (ix2 s d) = ∑ t : Fin 1024, a (ix2 s t) * v (ix2 t d) :=
  mmAV_apply _ _ s d

/-! ## The payload as the composition of its stages -/

/-- The head's output rows as a [1024, 64] vector: the slab's rows projected three ways, scored, scaled, softmaxed,
    mixed, and projected out. -/
def headVec (v0 v3 v6 v9 : Vec Ideal S64x64 .f32) (v12 v14 v16 v18 : Vec Ideal S1x64 .f32)
    (v24 : Vec Ideal S1x1024x64 .f32) : FVec Ideal S1024x64 .f32 :=
  projVec (truncf .bf16
      (mixVec
        (softVec (scoreVec
          (projVec (truncf .bf16 (shapeCast S1024x64 v24 shapeCasts_S1x1024x64_S1024x64) bitsLt_bf16_f32) v0 v12)
          (projVec (truncf .bf16 (shapeCast S1024x64 v24 shapeCasts_S1x1024x64_S1024x64) bitsLt_bf16_f32) v3 v14)))
        (projVec (truncf .bf16 (shapeCast S1024x64 v24 shapeCasts_S1x1024x64_S1024x64) bitsLt_bf16_f32) v6 v16))
      bitsLt_bf16_f32) v9 v18

/-- The generated payload is the stages composed, then cast back to a one-row-block slab: the two terms unfold to the same
    sequence of operations. -/
theorem pay_eq (v0 v3 v6 v9 : Vec Ideal S64x64 .f32) (v12 v14 v16 v18 : Vec Ideal S1x64 .f32)
    (v24 : Vec Ideal S1x1024x64 .f32) :
    k0_pay1 (F := Ideal) v0 v3 v6 v9 v12 v14 v16 v18 v24
      = shapeCast S1x1024x64 (headVec v0 v3 v6 v9 v12 v14 v16 v18 v24) shapeCasts_S1024x64_S1x1024x64 := rfl

/-- The composed stages at (s, e) are the specification's head, over the slab's rows, the loaded matrices read
    transposed (W(e, d) = w(d, e)) and the bias rows: stage by stage, each vector read at an index is the specification's
    function of the previous stage's, and the sums' summands are rewritten under the sums. -/
theorem headVec_apply (v0 v3 v6 v9 : Vec Ideal S64x64 .f32) (v12 v14 v16 v18 : Vec Ideal S1x64 .f32)
    (v24 : Vec Ideal S1x1024x64 .f32) (s : Fin 1024) (e : Fin 64) :
    headVec v0 v3 v6 v9 v12 v14 v16 v18 v24 (ix2 s e)
      = HeadSpec.head HeadSpec.scaleMul (fun s d => v24 (ix3 (0 : Fin 1) s d))
          (fun e d => v0 (ix2 d e)) (fun e => v12 (ix2 (0 : Fin 1) e))
          (fun e d => v3 (ix2 d e)) (fun e => v14 (ix2 (0 : Fin 1) e))
          (fun e d => v6 (ix2 d e)) (fun e => v16 (ix2 (0 : Fin 1) e))
          (fun e d => v9 (ix2 d e)) (fun e => v18 (ix2 (0 : Fin 1) e)) s e := by
  unfold headVec HeadSpec.head
  -- the slab's rows: the cast to [1024, 64] and the change of format leave the entry (0, s, d)
  have hX : (fun (s : Fin 1024) (d : Fin 64) =>
      (truncf .bf16 (shapeCast S1024x64 v24 shapeCasts_S1x1024x64_S1024x64) bitsLt_bf16_f32 :
        FVec Ideal S1024x64 .bf16) (ix2 s d)) = fun s d => v24 (ix3 (0 : Fin 1) s d) := by
    funext s d; exact shapeCast_1ab_ab_apply v24 _ s d
  generalize (truncf .bf16 (shapeCast S1024x64 v24 shapeCasts_S1x1024x64_S1024x64) bitsLt_bf16_f32 :
    FVec Ideal S1024x64 .bf16) = x at hX ⊢
  refine (projVec_apply _ v9 v18 s e).trans ?_
  refine congrArg (fun M => HeadSpec.proj M _ _ s e) ?_
  funext s d
  refine (mixVec_apply _ _ s d).trans ?_
  unfold HeadSpec.mix
  refine Finset.sum_congr rfl fun t _ => ?_
  refine congrArg₂ (· * ·) ?_ ?_
  · refine (softVec_apply _ s t).trans ?_
    refine congrArg (fun SC => HeadSpec.attn SC s t) ?_
    funext s t
    refine (scoreVec_apply _ _ s t).trans ?_
    refine congrArg HeadSpec.scaleMul ?_
    refine congrArg₂ (fun Q K => HeadSpec.qk Q K s t) ?_ ?_
    · funext s d; rw [projVec_apply, hX]
    · funext t d; rw [projVec_apply, hX]
  · rw [projVec_apply, hX]

/-- THE PAYLOAD AT AN INDEX: entry (0, s, e) of the slab the kernel stores for one head is the specification's head at
    (s, e), with the scale a multiplication by the constant, over the loaded slab, weights and biases. -/
theorem pay_apply
    (v0 v3 v6 v9 : Vec Ideal S64x64 .f32) (v12 v14 v16 v18 : Vec Ideal S1x64 .f32) (v24 : Vec Ideal S1x1024x64 .f32)
    (s : Fin 1024) (e : Fin 64) :
    Cert.KernelIdeal.Gen.k0_pay1 (F := Ideal) v0 v3 v6 v9 v12 v14 v16 v18 v24 (ix3 (0 : Fin 1) s e)
      = Cert.HeadSpec.head Cert.HeadSpec.scaleMul (fun s d => v24 (ix3 (0 : Fin 1) s d))
          (fun e d => v0 (ix2 d e)) (fun e => v12 (ix2 (0 : Fin 1) e))
          (fun e d => v3 (ix2 d e)) (fun e => v14 (ix2 (0 : Fin 1) e))
          (fun e d => v6 (ix2 d e)) (fun e => v16 (ix2 (0 : Fin 1) e))
          (fun e d => v9 (ix2 d e)) (fun e => v18 (ix2 (0 : Fin 1) e)) s e :=
  (congrFun (pay_eq v0 v3 v6 v9 v12 v14 v16 v18 v24) (ix3 (0 : Fin 1) s e)).trans
    ((shapeCast_ab_1ab_apply _ shapeCasts_S1024x64_S1x1024x64 (0 : Fin 1) s e).trans
      (headVec_apply v0 v3 v6 v9 v12 v14 v16 v18 v24 s e))

end Cert.PayHead

end
-- ==== Proof.LibLastAxisMax4.lean ====
/-
  The host's maximum over the LAST axis of an `[m, n, a, b]` array, read at an index written by its coordinates.

  A softmax over the last axis of a four-dimensional array takes, for each `(j, k, p)`, the maximum of the `b` entries
  `(j, k, p, c)`. At the ideal values the host's reduction is the fold of `max`, from the initial value, over `c : Fin b`
  of those entries: no order of evaluation is left in it. Nothing here mentions a program.
-/
import Idealize.ShloMosaic.PureOps.Ideal.Laws
import Idealize.ShloMosaic.Lib.Pipeline.Value
import Idealize.ShloMosaic.Lib.ValueIdx

namespace Cert.LastAxisMax4

open Idealize.ShloMosaic Idealize.ShloMosaic.ValueIdx

variable {φ : FTy}

/-- The host's maximum over the LAST axis of an `[m, n, a, b]` array, at `(j, k, p)`: the fold of `max`, from the initial
    value, over `c : Fin b` of the entries `(j, k, p, c)`. The reduction drops axis 3; the index it reads for the
    coordinate `c` is `(j, k, p)` with `c` inserted last, which is `(j, k, p, c)` coordinate by coordinate. -/
theorem hostLastMax4_apply {m n a b : ℕ} {u : Shape} (x : (⟨4, ![m, n, a, b]⟩ : Shape).Idx → Ideal φ)
    (init : u.Idx → Ideal φ)
    (h' : (⟨4, ![m, n, a, b]⟩ : Shape).ReducesTo [3] ⟨3, ![m, n, a]⟩)
    (h : (⟨4, ![m, n, a, b]⟩ : Shape).Reduces [3] ⟨3, ![m, n, a]⟩)
    (hu : 0 < u.numel) (j : Fin m) (k : Fin n) (p : Fin a) :
    Host.reduce (FloatOps.maximumf (F := Ideal) (φ := φ)) x init h' hu (ix3 j k p)
      = (Finset.univ : Finset (Fin b)).fold max (init (Shape.Idx.first hu)) (fun c => x (ix4 j k p c)) := by
  refine (Host.reduce_eq_fold_single (FloatOps.maximumf (F := Ideal) (φ := φ)) x init h' h hu (ix3 j k p)).trans ?_
  show (Finset.univ : Finset (Fin b)).fold max (init (Shape.Idx.first hu)) (fun c => x (h.lift (ix3 j k p) c)) = _
  refine congrArg (fun f => (Finset.univ : Finset (Fin b)).fold max (init (Shape.Idx.first hu)) f) (funext fun c => ?_)
  exact congrArg x (funext fun ax => Fin.ext (by
    match ax with | ⟨0, _⟩ => rfl | ⟨1, _⟩ => rfl | ⟨2, _⟩ => rfl | ⟨3, _⟩ => rfl))

end Cert.LastAxisMax4
-- ==== Proof.RefHead.lean ====
/-
  The reference program, read as one attention head per (batch, head) slice.

  The program projects the input three times (queries, keys, values: a contraction over the last axis with a weight
  matrix, plus a bias), contracts queries with keys into scores, divides the scores by √64, applies a softmax along the
  last axis (row maximum from -∞, subtract, exponentiate, sum from 0, divide), contracts the softmax weights with the
  values, and projects once more. The batch and head axes pass through every operation unchanged, so the result at
  (b, h, s, e) is the head of HeadSpec, computed from slice (b, h) of the input, at (s, e). Each stage below reads one
  operation at explicit coordinates and identifies it with the corresponding function of the specification.
-/
import proofs.«135089_j80272938762345_2_alg».proof.Proof.Gen.ReferenceIdeal.Read
import proofs.«135089_j80272938762345_2_alg».proof.Proof.HeadSpec
import proofs.«135089_j80272938762345_2_alg».proof.Proof.LibLastAxisMax4

noncomputable section

namespace Cert.RefHead

open Cert.ReferenceIdeal Cert.ReferenceIdeal.Gen Cert.ReferenceIdeal.Read Idealize.ShloMosaic Idealize.ShloMosaic.ValueIdx Idealize.SL.Sem
open Cert.HeadSpec

/-- The four-dimensional input `[16, 12, 1024, 64]`. -/
abbrev T4 : Type := (⟨S16x12x1024x64, .f32⟩ : BufTy).Contents (Elt Ideal)
/-- A weight matrix `[64, 64]`. -/
abbrev TW : Type := (⟨S64x64, .f32⟩ : BufTy).Contents (Elt Ideal)
/-- A bias vector `[64]`. -/
abbrev TB : Type := (⟨S64, .f32⟩ : BufTy).Contents (Elt Ideal)

/-- The slice of a four-dimensional array at batch `b` and head `h`, as a function of position and feature. -/
abbrev slice (x : T4) (b : Fin 16) (h : Fin 12) : Fin 1024 → Fin 64 → EReal := fun s d => x (ix4 b h s d)
/-- A weight matrix as a function of its two coordinates. -/
abbrev mat (W : TW) : Fin 64 → Fin 64 → EReal := fun e d => W (ix2 e d)
/-- A bias vector as a function of its coordinate. -/
abbrev vec (c : TB) : Fin 64 → EReal := fun e => c (ix1 e)

/-! ## The three projections (and, later, the output projection)

Each is a contraction over the last axis with a `[64, 64]` weight matrix followed by the addition of a bias vector that
is broadcast along the three leading axes. -/

/-- A linear layer on the last axis, at one entry: the contraction of row (b, h, s) of the input with row e of the
    weights, plus entry e of the bias. -/
theorem linear_apply (X : T4) (W : TW) (c : TB) (b : Fin 16) (h : Fin 12) (s : Fin 1024) (e : Fin 64) :
    val_main_v3 (F := Ideal) X W c (ix4 b h s e) = proj (slice X b h) (mat W) (vec c) s e := by
  rw [val_main_v3_apply, val_main_v0_apply, val_main_v2_apply, val_main_v1_apply]
  show (∑ k : Fin 64, X (lidx_main_v0 (ix4 b h s e) k) * W (ridx_main_v0 (ix4 b h s e) k))
      + c (idx_main_v1 (idx_main_v2 (ix4 b h s e))) = (∑ d : Fin 64, X (ix4 b h s d) * W (ix2 e d)) + c (ix1 e)
  have el : ∀ k : Fin 64, lidx_main_v0 (ix4 b h s e) k = ix4 b h s k := fun k => funext fun a => Fin.ext (by
    match a with | ⟨0, _⟩ => rfl | ⟨1, _⟩ => rfl | ⟨2, _⟩ => rfl | ⟨3, _⟩ => rfl)
  have er : ∀ k : Fin 64, ridx_main_v0 (ix4 b h s e) k = ix2 e k := fun k => funext fun a => Fin.ext (by
    match a with | ⟨0, _⟩ => rfl | ⟨1, _⟩ => rfl)
  have eb : idx_main_v1 (idx_main_v2 (ix4 b h s e)) = ix1 e := funext fun a => Fin.ext (by
    match a with | ⟨0, _⟩ => rfl)
  rw [eb]
  exact congrArg (· + c (ix1 e)) (Finset.sum_congr rfl fun k _ => by rw [el, er])

/-- The key projection is the same linear layer as the query projection, on its own weights. -/
theorem v7_eq (X : T4) (W : TW) (c : TB) : val_main_v7 (F := Ideal) X W c = val_main_v3 (F := Ideal) X W c := rfl

/-- The value projection is the same linear layer again. -/
theorem v11_eq (X : T4) (W : TW) (c : TB) : val_main_v11 (F := Ideal) X W c = val_main_v3 (F := Ideal) X W c := rfl

/-! ## The scores -/

/-- The scaled scores of head (b, h): the contraction of a query row with a key row, divided by √64. -/
def sc (x : T4) (Wq : TW) (bq : TB) (Wk : TW) (bk : TB) (b : Fin 16) (h : Fin 12) : Fin 1024 → Fin 1024 → EReal :=
  fun s t => scaleDiv (qk (proj (slice x b h) (mat Wq) (vec bq)) (proj (slice x b h) (mat Wk) (vec bk)) s t)

/-- The unscaled score at (s, t) contracts row s of the queries with row t of the keys, both of head (b, h). -/
theorem scores_apply (x : T4) (Wq : TW) (bq : TB) (Wk : TW) (bk : TB) (b : Fin 16) (h : Fin 12) (s t : Fin 1024) :
    val_main_v12 (F := Ideal) x Wq bq Wk bk (ix4 b h s t)
      = qk (proj (slice x b h) (mat Wq) (vec bq)) (proj (slice x b h) (mat Wk) (vec bk)) s t := by
  rw [val_main_v12_apply]
  show _ = ∑ d : Fin 64, proj (slice x b h) (mat Wq) (vec bq) s d * proj (slice x b h) (mat Wk) (vec bk) t d
  refine Finset.sum_congr rfl fun d _ => ?_
  have el : lidx_main_v12 (ix4 b h s t) d = ix4 b h s d := funext fun a => Fin.ext (by
    match a with | ⟨0, _⟩ => rfl | ⟨1, _⟩ => rfl | ⟨2, _⟩ => rfl | ⟨3, _⟩ => rfl)
  have er : ridx_main_v12 (ix4 b h s t) d = ix4 b h t d := funext fun a => Fin.ext (by
    match a with | ⟨0, _⟩ => rfl | ⟨1, _⟩ => rfl | ⟨2, _⟩ => rfl | ⟨3, _⟩ => rfl)
  rw [el, er, v7_eq, linear_apply, linear_apply]

/-- The divisor of the scores is, at every entry, the square root of the constant 64. -/
theorem divisor_apply (i : S16x12x1024x1024.Idx) :
    val_main_v14 (F := Ideal) i = Ideal.sqrt (Ideal.ofBits .f32 0x42800000#32) := by
  rw [val_main_v14_apply, val_main_v13_apply, val_main_cst_apply]
  rfl

/-- The scaled score at (s, t). -/
theorem scaled_apply (x : T4) (Wq : TW) (bq : TB) (Wk : TW) (bk : TB) (b : Fin 16) (h : Fin 12) (s t : Fin 1024) :
    val_main_v15 (F := Ideal) x Wq bq Wk bk (ix4 b h s t) = sc x Wq bq Wk bk b h s t := by
  rw [val_main_v15_apply, divisor_apply, scores_apply]
  rfl

/-! ## The softmax along each row -/

/-- The host's reduction of row s by the maximum starts from -∞ and folds over the row's entries. -/
theorem rowfold_apply (x : T4) (Wq : TW) (bq : TB) (Wk : TW) (bk : TB) (b : Fin 16) (h : Fin 12) (s : Fin 1024) :
    val_main_v16 (F := Ideal) x Wq bq Wk bk (ix3 b h s) = rowMax (sc x Wq bq Wk bk b h) s := by
  unfold val_main_v16
  refine (Cert.LastAxisMax4.hostLastMax4_apply (val_main_v15 (F := Ideal) x Wq bq Wk bk) (val_main_cst_0 (F := Ideal))
    reducesTo_S16x12x1024x1024_S16x12x1024_d3 (by decide) h_S_ b h s).trans ?_
  rw [val_main_cst_0_apply, Ideal.ofBits_def, ofBits_neg_inf]
  exact congrArg (fun f => (Finset.univ : Finset (Fin 1024)).fold max (⊥ : EReal) f)
    (funext fun t => scaled_apply x Wq bq Wk bk b h s t)

/-- Taking the maximum with -∞ once more changes nothing: the row maximum. -/
theorem rowmax_apply (x : T4) (Wq : TW) (bq : TB) (Wk : TW) (bk : TB) (b : Fin 16) (h : Fin 12) (s : Fin 1024) :
    val_main_v18 (F := Ideal) x Wq bq Wk bk (ix3 b h s) = rowMax (sc x Wq bq Wk bk b h) s := by
  rw [val_main_v18_apply, val_main_v17_apply, val_main_cst_1_apply, rowfold_apply, Ideal.ofBits_def, ofBits_neg_inf]
  exact max_eq_right bot_le

/-- The row maximum broadcast back along the row. -/
theorem rowmax_bcast_apply (x : T4) (Wq : TW) (bq : TB) (Wk : TW) (bk : TB) (b : Fin 16) (h : Fin 12) (s t : Fin 1024) :
    val_main_v20 (F := Ideal) x Wq bq Wk bk (ix4 b h s t) = rowMax (sc x Wq bq Wk bk b h) s := by
  rw [val_main_v20_apply, val_main_v19_apply]
  have ei : idx_main_v19 (idx_main_v20 (ix4 b h s t)) = ix3 b h s := funext fun a => Fin.ext (by
    match a with | ⟨0, _⟩ => rfl | ⟨1, _⟩ => rfl | ⟨2, _⟩ => rfl)
  rw [ei, rowmax_apply]

/-- The unnormalised weight: the exponential of the score less its row's maximum. -/
theorem weight_apply (x : T4) (Wq : TW) (bq : TB) (Wk : TW) (bk : TB) (b : Fin 16) (h : Fin 12) (s t : Fin 1024) :
    val_main_v22 (F := Ideal) x Wq bq Wk bk (ix4 b h s t) = weight (sc x Wq bq Wk bk b h) s t := by
  rw [val_main_v22_apply, val_main_v21_apply, scaled_apply, rowmax_bcast_apply]
  rfl

/-- The row's normaliser: the sum, from zero, of the row's weights. -/
theorem norm_apply (x : T4) (Wq : TW) (bq : TB) (Wk : TW) (bk : TB) (b : Fin 16) (h : Fin 12) (s : Fin 1024) :
    val_main_v23 (F := Ideal) x Wq bq Wk bk (ix3 b h s) = norm (sc x Wq bq Wk bk b h) s := by
  rw [val_main_v23_apply, val_main_cst_2_apply, Ideal.ofBits_def, Ideal.ofBits_zero_f32, zero_add]
  show _ = ∑ t : Fin 1024, weight (sc x Wq bq Wk bk b h) s t
  refine Finset.sum_congr rfl fun t _ => ?_
  have ei : idx_main_v23 (ix3 b h s) t = ix4 b h s t := funext fun a => Fin.ext (by
    match a with | ⟨0, _⟩ => rfl | ⟨1, _⟩ => rfl | ⟨2, _⟩ => rfl | ⟨3, _⟩ => rfl)
  rw [ei, weight_apply]

/-- The normaliser broadcast back along the row. -/
theorem norm_bcast_apply (x : T4) (Wq : TW) (bq : TB) (Wk : TW) (bk : TB) (b : Fin 16) (h : Fin 12) (s t : Fin 1024) :
    val_main_v25 (F := Ideal) x Wq bq Wk bk (ix4 b h s t) = norm (sc x Wq bq Wk bk b h) s := by
  rw [val_main_v25_apply, val_main_v24_apply]
  have ei : idx_main_v24 (idx_main_v25 (ix4 b h s t)) = ix3 b h s := funext fun a => Fin.ext (by
    match a with | ⟨0, _⟩ => rfl | ⟨1, _⟩ => rfl | ⟨2, _⟩ => rfl)
  rw [ei, norm_apply]

/-- The softmax weight: the weight divided by its row's normaliser. -/
theorem attn_apply (x : T4) (Wq : TW) (bq : TB) (Wk : TW) (bk : TB) (b : Fin 16) (h : Fin 12) (s t : Fin 1024) :
    val_main_v26 (F := Ideal) x Wq bq Wk bk (ix4 b h s t) = attn (sc x Wq bq Wk bk b h) s t := by
  rw [val_main_v26_apply, weight_apply, norm_bcast_apply]
  rfl

/-! ## The mix of the value rows and the output projection -/

/-- Entry (s, d) of the mixed values: the softmax weights of row s against column d of the value projection. -/
theorem mix_apply (x : T4) (Wq : TW) (bq : TB) (Wk : TW) (bk : TB) (Wv : TW) (bv : TB)
    (b : Fin 16) (h : Fin 12) (s : Fin 1024) (d : Fin 64) :
    val_main_v27 (F := Ideal) x Wq bq Wk bk Wv bv (ix4 b h s d)
      = mix (sc x Wq bq Wk bk b h) (proj (slice x b h) (mat Wv) (vec bv)) s d := by
  rw [val_main_v27_apply]
  show _ = ∑ t : Fin 1024, attn (sc x Wq bq Wk bk b h) s t * proj (slice x b h) (mat Wv) (vec bv) t d
  refine Finset.sum_congr rfl fun t _ => ?_
  have el : lidx_main_v27 (ix4 b h s d) t = ix4 b h s t := funext fun a => Fin.ext (by
    match a with | ⟨0, _⟩ => rfl | ⟨1, _⟩ => rfl | ⟨2, _⟩ => rfl | ⟨3, _⟩ => rfl)
  have er : ridx_main_v27 (ix4 b h s d) t = ix4 b h t d := funext fun a => Fin.ext (by
    match a with | ⟨0, _⟩ => rfl | ⟨1, _⟩ => rfl | ⟨2, _⟩ => rfl | ⟨3, _⟩ => rfl)
  rw [el, er, attn_apply, v11_eq, linear_apply]

/-- The output is the linear layer applied to the mixed values. -/
theorem out_apply (x : T4) (Wq : TW) (bq : TB) (Wk : TW) (bk : TB) (Wv : TW) (bv : TB) (Wo : TW) (bo : TB)
    (b : Fin 16) (h : Fin 12) (s : Fin 1024) (e : Fin 64) :
    val_main_v31 (F := Ideal) x Wq bq Wk bk Wv bv Wo bo (ix4 b h s e)
      = proj (slice (val_main_v27 (F := Ideal) x Wq bq Wk bk Wv bv) b h) (mat Wo) (vec bo) s e := by
  unfold val_main_v31 val_main_v28 val_main_v30 val_main_v29
  generalize val_main_v27 (F := Ideal) x Wq bq Wk bk Wv bv = Y
  exact linear_apply Y Wo bo b h s e

/-- The reference program's result at (b, h, s, e) is the attention head of slice (b, h) of the input, with the score
    scaled by division by √64, at (s, e). -/
theorem ref_apply
    (x : (⟨S16x12x1024x64, .f32⟩ : BufTy).Contents (Elt Ideal))
    (Wq : (⟨S64x64, .f32⟩ : BufTy).Contents (Elt Ideal)) (bq : (⟨S64, .f32⟩ : BufTy).Contents (Elt Ideal))
    (Wk : (⟨S64x64, .f32⟩ : BufTy).Contents (Elt Ideal)) (bk : (⟨S64, .f32⟩ : BufTy).Contents (Elt Ideal))
    (Wv : (⟨S64x64, .f32⟩ : BufTy).Contents (Elt Ideal)) (bv : (⟨S64, .f32⟩ : BufTy).Contents (Elt Ideal))
    (Wo : (⟨S64x64, .f32⟩ : BufTy).Contents (Elt Ideal)) (bo : (⟨S64, .f32⟩ : BufTy).Contents (Elt Ideal))
    (b : Fin 16) (h : Fin 12) (s : Fin 1024) (e : Fin 64) :
    Cert.ReferenceIdeal.Read.val_main_v31 (F := Ideal) x Wq bq Wk bk Wv bv Wo bo (ix4 b h s e)
      = Cert.HeadSpec.head Cert.HeadSpec.scaleDiv (fun s d => x (ix4 b h s d))
          (fun e d => Wq (ix2 e d)) (fun e => bq (ix1 e))
          (fun e d => Wk (ix2 e d)) (fun e => bk (ix1 e))
          (fun e d => Wv (ix2 e d)) (fun e => bv (ix1 e))
          (fun e d => Wo (ix2 e d)) (fun e => bo (ix1 e)) s e := by
  refine (out_apply x Wq bq Wk bk Wv bv Wo bo b h s e).trans ?_
  have hmix : slice (val_main_v27 (F := Ideal) x Wq bq Wk bk Wv bv) b h
      = mix (sc x Wq bq Wk bk b h) (proj (slice x b h) (mat Wv) (vec bv)) :=
    funext fun s' => funext fun d => mix_apply x Wq bq Wk bk Wv bv b h s' d
  rw [hmix]
  rfl

end Cert.RefHead

end
-- ==== Proof.HostArrays.lean ====
/-
  The arrays the kernel's region reads, and the array the program returns, in terms of the program's arguments.

  Before the region the program only rearranges its arguments: the input `[16, 12, 1024, 64]` is flattened to
  `[192, 1024, 64]` (batch and head merged into one leading axis, g = 12·b + h), each of the four weight matrices is
  transposed, and each of the four bias vectors gets a leading unit axis. After the region the result `[192, 1024, 64]`
  is unflattened to `[16, 12, 1024, 64]`. Every one of these is a relabelling of indices: a reshape keeps the row-major
  position, a transpose swaps the two coordinates. Nothing here depends on the arithmetic: every statement holds over any
  instance of the float operations.
-/
import proofs.«135089_j80272938762345_2_alg».proof.Proof.Gen.KernelIdeal.Frame
import Idealize.ShloMosaic.Lib.ValueLayout
import Idealize.ShloMosaic.Lib.StableHlo.Run

noncomputable section

namespace Cert.KernelIdeal.HostArrays

open Cert.KernelIdeal Cert.KernelIdeal.Gen Idealize.ShloMosaic Idealize.ShloMosaic.TcCoe Idealize.ShloMosaic.ValueIdx
open Idealize.SL.Sem Idealize.ShloMosaic.StableHlo

variable {F : FTy → Type} [FloatOps F] (m : (ℓ : Loc nD τ sig) → Buf (Elt F) ℓ)

variable {α : Type}

/-! ## The three relabellings, over any array -/

/-- Flattening `[16, 12, 1024, 64]` to `[192, 1024, 64]`: entry (g, s, d) of the result is entry (g / 12, g % 12, s, d) of
    the operand, because (g / 12)·12 + g % 12 = g makes the two row-major positions equal. -/
theorem flatten_apply (A : S16x12x1024x64.Idx → α) (hc : S16x12x1024x64.ShapeCasts S192x1024x64)
    (g : Fin 192) (s : Fin 1024) (d : Fin 64) :
    shapeCast S192x1024x64 A hc (ix3 g s d)
      = A (ix4 (⟨g.val / 12, by omega⟩ : Fin 16) (⟨g.val % 12, by omega⟩ : Fin 12) s d) :=
  shapeCast_apply A hc _ _ (by
    rw [Shape.rowMajor_val_four, Shape.rowMajor_val_three]
    show ((g.val / 12 * 12 + g.val % 12) * 1024 + s.val) * 64 + d.val = (g.val * 1024 + s.val) * 64 + d.val
    omega)

/-- Unflattening `[192, 1024, 64]` to `[16, 12, 1024, 64]`: entry (b, h, s, e) of the result is entry (12·b + h, s, e) of
    the operand, the two row-major positions being equal. -/
theorem tail_reshape_apply (A : S192x1024x64.Idx → α) (hc : S192x1024x64.ShapeCasts S16x12x1024x64)
    (b : Fin 16) (h : Fin 12) (s : Fin 1024) (e : Fin 64) :
    shapeCast S16x12x1024x64 A hc (ix4 b h s e) = A (ix3 (⟨12 * b.val + h.val, by omega⟩ : Fin 192) s e) :=
  shapeCast_apply A hc _ _ (by
    rw [Shape.rowMajor_val_three, Shape.rowMajor_val_four]
    show ((12 * b.val + h.val) * 1024 + s.val) * 64 + e.val = ((b.val * 12 + h.val) * 1024 + s.val) * 64 + e.val
    omega)

/-! ## The arrays as the region finds them -/

/-- The flattened input is the flattening of the first argument. -/
theorem V_v0_eq (c : Dev nD) :
    (V m c main_v0 : S192x1024x64.Idx → Elt F .f32)
      = shapeCast S192x1024x64 (m ((c : Thread nD τ).loc main_arg0)) shapeCasts_S16x12x1024x64_S192x1024x64 := by
  show StableHlo.after hostOps0 (fun b => m (c, b)) (Proc.devRef .tc main_v0) = _
  after_results
  rfl

/-- Entry (g, s, d) of the flattened input is entry (g / 12, g % 12, s, d) of the first argument. -/
theorem V_v0_apply (c : Dev nD) (g : Fin 192) (s : Fin 1024) (d : Fin 64) :
    V m c main_v0 (ix3 g s d)
      = m ((c : Thread nD τ).loc main_arg0) (ix4 (⟨g.val / 12, by omega⟩ : Fin 16) (⟨g.val % 12, by omega⟩ : Fin 12) s d) := by
  rw [V_v0_eq]
  exact flatten_apply _ _ g s d

/-- The query weights as the region finds them are the transpose of argument 1. -/
theorem V_v1_eq (c : Dev nD) :
    (V m c main_v1 : S64x64.Idx → Elt F .f32)
      = transpose S64x64 [1, 0] (m ((c : Thread nD τ).loc main_arg1)) transposes_S64x64_S64x64_1_0 := by
  show StableHlo.after hostOps0 (fun b => m (c, b)) (Proc.devRef .tc main_v1) = _
  after_results

/-- Entry (d, e) of the transposed query weights is entry (e, d) of argument 1. -/
theorem V_v1_apply (c : Dev nD) (d e : Fin 64) :
    V m c main_v1 (ix2 d e) = m ((c : Thread nD τ).loc main_arg1) (ix2 e d) := by
  rw [V_v1_eq]
  exact transpose_ix2_apply _ _ d e

/-- The key weights as the region finds them are the transpose of argument 3. -/
theorem V_v2_eq (c : Dev nD) :
    (V m c main_v2 : S64x64.Idx → Elt F .f32)
      = transpose S64x64 [1, 0] (m ((c : Thread nD τ).loc main_arg3)) transposes_S64x64_S64x64_1_0 := by
  show StableHlo.after hostOps0 (fun b => m (c, b)) (Proc.devRef .tc main_v2) = _
  after_results

/-- Entry (d, e) of the transposed key weights is entry (e, d) of argument 3. -/
theorem V_v2_apply (c : Dev nD) (d e : Fin 64) :
    V m c main_v2 (ix2 d e) = m ((c : Thread nD τ).loc main_arg3) (ix2 e d) := by
  rw [V_v2_eq]
  exact transpose_ix2_apply _ _ d e

/-- The value weights as the region finds them are the transpose of argument 5. -/
theorem V_v3_eq (c : Dev nD) :
    (V m c main_v3 : S64x64.Idx → Elt F .f32)
      = transpose S64x64 [1, 0] (m ((c : Thread nD τ).loc main_arg5)) transposes_S64x64_S64x64_1_0 := by
  show StableHlo.after hostOps0 (fun b => m (c, b)) (Proc.devRef .tc main_v3) = _
  after_results

/-- Entry (d, e) of the transposed value weights is entry (e, d) of argument 5. -/
theorem V_v3_apply (c : Dev nD) (d e : Fin 64) :
    V m c main_v3 (ix2 d e) = m ((c : Thread nD τ).loc main_arg5) (ix2 e d) := by
  rw [V_v3_eq]
  exact transpose_ix2_apply _ _ d e

/-- The output weights as the region finds them are the transpose of argument 7. -/
theorem V_v4_eq (c : Dev nD) :
    (V m c main_v4 : S64x64.Idx → Elt F .f32)
      = transpose S64x64 [1, 0] (m ((c : Thread nD τ).loc main_arg7)) transposes_S64x64_S64x64_1_0 := by
  show StableHlo.after hostOps0 (fun b => m (c, b)) (Proc.devRef .tc main_v4) = _
  after_results

/-- Entry (d, e) of the transposed output weights is entry (e, d) of argument 7. -/
theorem V_v4_apply (c : Dev nD) (d e : Fin 64) :
    V m c main_v4 (ix2 d e) = m ((c : Thread nD τ).loc main_arg7) (ix2 e d) := by
  rw [V_v4_eq]
  exact transpose_ix2_apply _ _ d e

/-- The query bias as the region finds it is argument 2 with a leading unit axis. -/
theorem V_v5_eq (c : Dev nD) :
    (V m c main_v5 : S1x64.Idx → Elt F .f32)
      = shapeCast S1x64 (m ((c : Thread nD τ).loc main_arg2)) shapeCasts_S64_S1x64 := by
  show StableHlo.after hostOps0 (fun b => m (c, b)) (Proc.devRef .tc main_v5) = _
  after_results
  rfl

/-- Entry (0, e) of the query bias row is entry e of argument 2. -/
theorem V_v5_apply (c : Dev nD) (e : Fin 64) :
    V m c main_v5 (ix2 (0 : Fin 1) e) = m ((c : Thread nD τ).loc main_arg2) (ix1 e) := by
  rw [V_v5_eq]
  exact shapeCast_a_1a_apply _ _ (0 : Fin 1) e

/-- The key bias as the region finds it is argument 4 with a leading unit axis. -/
theorem V_v6_eq (c : Dev nD) :
    (V m c main_v6 : S1x64.Idx → Elt F .f32)
      = shapeCast S1x64 (m ((c : Thread nD τ).loc main_arg4)) shapeCasts_S64_S1x64 := by
  show StableHlo.after hostOps0 (fun b => m (c, b)) (Proc.devRef .tc main_v6) = _
  after_results
  rfl

/-- Entry (0, e) of the key bias row is entry e of argument 4. -/
theorem V_v6_apply (c : Dev nD) (e : Fin 64) :
    V m c main_v6 (ix2 (0 : Fin 1) e) = m ((c : Thread nD τ).loc main_arg4) (ix1 e) := by
  rw [V_v6_eq]
  exact shapeCast_a_1a_apply _ _ (0 : Fin 1) e

/-- The value bias as the region finds it is argument 6 with a leading unit axis. -/
theorem V_v7_eq (c : Dev nD) :
    (V m c main_v7 : S1x64.Idx → Elt F .f32)
      = shapeCast S1x64 (m ((c : Thread nD τ).loc main_arg6)) shapeCasts_S64_S1x64 := by
  show StableHlo.after hostOps0 (fun b => m (c, b)) (Proc.devRef .tc main_v7) = _
  after_results
  rfl

/-- Entry (0, e) of the value bias row is entry e of argument 6. -/
theorem V_v7_apply (c : Dev nD) (e : Fin 64) :
    V m c main_v7 (ix2 (0 : Fin 1) e) = m ((c : Thread nD τ).loc main_arg6) (ix1 e) := by
  rw [V_v7_eq]
  exact shapeCast_a_1a_apply _ _ (0 : Fin 1) e

/-- The output bias as the region finds it is argument 8 with a leading unit axis. -/
theorem V_v8_eq (c : Dev nD) :
    (V m c main_v8 : S1x64.Idx → Elt F .f32)
      = shapeCast S1x64 (m ((c : Thread nD τ).loc main_arg8)) shapeCasts_S64_S1x64 := by
  show StableHlo.after hostOps0 (fun b => m (c, b)) (Proc.devRef .tc main_v8) = _
  after_results
  rfl

/-- Entry (0, e) of the output bias row is entry e of argument 8. -/
theorem V_v8_apply (c : Dev nD) (e : Fin 64) :
    V m c main_v8 (ix2 (0 : Fin 1) e) = m ((c : Thread nD τ).loc main_arg8) (ix1 e) := by
  rw [V_v8_eq]
  exact shapeCast_a_1a_apply _ _ (0 : Fin 1) e

end Cert.KernelIdeal.HostArrays

end
-- ==== Proof.Bridge.lean ====
/-
  The two programs' results are one array.

  The kernel's result at (b, h, s, e): the reshape after the region reads the [192,1024,64] output at row 12·b + h; that row is
  the head's result for input slab 12·b + h of the reshaped input, which is the input's slice (b, h); the weights the kernel
  loads are the transposes of the arguments and its bias rows the biases. So the kernel computes, at (b, h, s, e), one head of
  the slice (b, h) with the score scaled by 1/8 — and the reference computes the same head with the score divided by √64, which
  is the same scale. Nothing here needs the inputs to be finite.
-/
import proofs.«135089_j80272938762345_2_alg».proof.Proof.ArrayValue
import proofs.«135089_j80272938762345_2_alg».proof.Proof.PayHead
import proofs.«135089_j80272938762345_2_alg».proof.Proof.RefHead
import proofs.«135089_j80272938762345_2_alg».proof.Proof.HostArrays

set_option maxRecDepth 16384

noncomputable section

namespace Cert.Bridge

open Idealize.ShloMosaic Idealize.ShloMosaic.TcCoe Idealize.ShloMosaic.ValueIdx
open Idealize.SL Idealize.SL.Sem
open Cert.KernelIdeal Cert.KernelIdeal.Gen Cert.KernelIdeal.ArrayValue Cert.KernelIdeal.HostArrays

variable (m : (ℓ : Loc nD τ sig) → Buf (Elt Ideal) ℓ)

/-- The kernel's result as an array: the reshape of the output array after the region. -/
def kernelResult (c : Dev nD) : S16x12x1024x64.Idx → EReal :=
  shapeCast S16x12x1024x64 (arrFn (F := Ideal) (V m c main_v0) (V m c main_v1) (V m c main_v2) (V m c main_v3) (V m c main_v4) (V m c main_v5) (V m c main_v6) (V m c main_v7) (V m c main_v8)) shapeCasts_S192x1024x64_S16x12x1024x64

/-- Row 12·b + h of the reshaped input is the input's slice (b, h). -/
theorem slice_eq (c : Dev nD) (b : Fin 16) (h : Fin 12) (hg : 12 * b.val + h.val < 192) :
    (fun (s : Fin 1024) (d : Fin 64) => V m c main_v0 (ix3 (n0 := 192) (n1 := 1024) (n2 := 64) ⟨12 * b.val + h.val, hg⟩ s d))
      = fun s d => (m ((c : Thread nD τ).loc main_arg0)) (ix4 b h s d) := by
  funext s d
  rw [V_v0_apply]
  have hb := b.isLt
  have hh := h.isLt
  refine congrArg (m ((c : Thread nD τ).loc main_arg0)) (funext fun a => Fin.ext ?_)
  match a with
  | ⟨0, _⟩ => show (12 * b.val + h.val) / 12 = b.val; omega
  | ⟨1, _⟩ => show (12 * b.val + h.val) % 12 = h.val; omega
  | ⟨2, _⟩ => rfl
  | ⟨3, _⟩ => rfl

/-- The kernel's result at (b, h, s, e): one head of the slice (b, h), the score scaled by 1/8. -/
theorem kernel_apply (c : Dev nD) (b : Fin 16) (h : Fin 12) (s : Fin 1024) (e : Fin 64) :
    kernelResult m c (ix4 b h s e)
      = Cert.HeadSpec.head Cert.HeadSpec.scaleMul (fun s d => (m ((c : Thread nD τ).loc main_arg0)) (ix4 b h s d))
          (fun e d => (m ((c : Thread nD τ).loc main_arg1)) (ix2 e d)) (fun e => (m ((c : Thread nD τ).loc main_arg2)) (ix1 e))
          (fun e d => (m ((c : Thread nD τ).loc main_arg3)) (ix2 e d)) (fun e => (m ((c : Thread nD τ).loc main_arg4)) (ix1 e))
          (fun e d => (m ((c : Thread nD τ).loc main_arg5)) (ix2 e d)) (fun e => (m ((c : Thread nD τ).loc main_arg6)) (ix1 e))
          (fun e d => (m ((c : Thread nD τ).loc main_arg7)) (ix2 e d)) (fun e => (m ((c : Thread nD τ).loc main_arg8)) (ix1 e)) s e := by
  have hb := b.isLt
  have hh := h.isLt
  have hg : 12 * b.val + h.val < 192 := by omega
  unfold kernelResult
  rw [tail_reshape_apply]
  unfold arrFn
  refine (Cert.PayHead.pay_apply (V m c main_v1) (V m c main_v2) (V m c main_v3) (V m c main_v4) (V m c main_v5) (V m c main_v6) (V m c main_v7) (V m c main_v8) _ s e).trans ?_
  rw [← slice_eq m c b h hg]
  have e1 : (fun (e d : Fin 64) => V m c main_v1 (ix2 d e)) = fun e d => (m ((c : Thread nD τ).loc main_arg1)) (ix2 e d) := by
    funext e d; exact V_v1_apply m c d e
  have e2 : (fun (e d : Fin 64) => V m c main_v2 (ix2 d e)) = fun e d => (m ((c : Thread nD τ).loc main_arg3)) (ix2 e d) := by
    funext e d; exact V_v2_apply m c d e
  have e3 : (fun (e d : Fin 64) => V m c main_v3 (ix2 d e)) = fun e d => (m ((c : Thread nD τ).loc main_arg5)) (ix2 e d) := by
    funext e d; exact V_v3_apply m c d e
  have e4 : (fun (e d : Fin 64) => V m c main_v4 (ix2 d e)) = fun e d => (m ((c : Thread nD τ).loc main_arg7)) (ix2 e d) := by
    funext e d; exact V_v4_apply m c d e
  have e5 : (fun (e : Fin 64) => V m c main_v5 (ix2 (0 : Fin 1) e)) = fun e => (m ((c : Thread nD τ).loc main_arg2)) (ix1 e) := by
    funext e; exact V_v5_apply m c e
  have e6 : (fun (e : Fin 64) => V m c main_v6 (ix2 (0 : Fin 1) e)) = fun e => (m ((c : Thread nD τ).loc main_arg4)) (ix1 e) := by
    funext e; exact V_v6_apply m c e
  have e7 : (fun (e : Fin 64) => V m c main_v7 (ix2 (0 : Fin 1) e)) = fun e => (m ((c : Thread nD τ).loc main_arg6)) (ix1 e) := by
    funext e; exact V_v7_apply m c e
  have e8 : (fun (e : Fin 64) => V m c main_v8 (ix2 (0 : Fin 1) e)) = fun e => (m ((c : Thread nD τ).loc main_arg8)) (ix1 e) := by
    funext e; exact V_v8_apply m c e
  rw [← e1, ← e2, ← e3, ← e4, ← e5, ← e6, ← e7, ← e8]

/-- The reference's result is the kernel's result array, when the two memories agree on the nine arguments: index by index
    both are one head of the input's slice (b, h), and the two scales are one function. -/
theorem result_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8)) :
    Cert.ReferenceIdeal.Value.res_main_v31 m' c = kernelResult m c := by
  rw [Cert.ReferenceIdeal.Read.val_main_v31_eq, h0, h1, h2, h3, h4, h5, h6, h7, h8]
  funext i
  obtain ⟨b, h, s, e, rfl⟩ : ∃ (b : Fin 16) (h : Fin 12) (s : Fin 1024) (e : Fin 64), i = ix4 b h s e :=
    ⟨i 0, i 1, i 2, i 3, eq_ix4 i⟩
  rw [Cert.RefHead.ref_apply, kernel_apply, Cert.HeadSpec.scale_eq]

end Cert.Bridge

end
-- ==== Proof.KernelRun.lean ====
/-
  The whole program's run, read at its result buffer.

  The program is: nine host lines that lay the arguments out (a regrouping of the input, four transposes, four bias rows),
  the region, and one host line after it, which regroups the region's output array [192, 1024, 64] as the result
  [16, 12, 1024, 64]. The region leaves its output array holding one function of the arrays it found (`arrFn`), so the
  result buffer ends holding that function's regrouping, and no line writes an argument buffer, so each ends as launched.
-/
import proofs.«135089_j80272938762345_2_alg».proof.Proof.ArrayValue

noncomputable section

namespace Cert.KernelIdeal.KernelRun

open Idealize.ShloMosaic Idealize.ShloMosaic.TcCoe Idealize.ShloMosaic.ValueIdx Idealize.SL Idealize.SL.Sem Idealize.ShloMosaic.StableHlo Cert.KernelIdeal Cert.KernelIdeal.Gen Cert.KernelIdeal.ArrayValue

variable {F : FTy → Type} [FloatOps F] (m : (ℓ : Loc nD τ sig) → Buf (Elt F) ℓ) (ρ : Dev nD → PrngReg)

/-- The result array after the one host line that follows the region: the region's output array [192, 1024, 64], which
    the region leaves holding `arrFn` of the arrays it found, regrouped as [16, 12, 1024, 64]. The line's result at its
    own buffer is the cast of its operand's contents; the operand is the region's output array, one of the pipeline's
    arrays, so its contents at the region's exit are what the proof data compute for it. -/
theorem tail_eq (c : Dev nD) :
    Pipeline.afterTail₀ cfgs (dats m) 0 (V0 m) [hostOps1] c main_v10
      = shapeCast S16x12x1024x64 (arrFn (V m c main_v0) (V m c main_v1) (V m c main_v2) (V m c main_v3) (V m c main_v4) (V m c main_v5) (V m c main_v6) (V m c main_v7) (V m c main_v8)) shapeCasts_S192x1024x64_S16x12x1024x64 := by
  unfold Pipeline.afterTail₀
  show StableHlo.after hostOps1 _ (Proc.devRef .tc main_v10) = _
  after_results
  have h : Pipeline.withArrays (cfgs 0).spec c (V0 m c) (fun w => (dats m 0 c).arrAt w (cfgs 0).N) (Proc.devRef .tc main_v9)
      = (arrFn (V m c main_v0) (V m c main_v1) (V m c main_v2) (V m c main_v3) (V m c main_v4) (V m c main_v5) (V m c main_v6) (V m c main_v7) (V m c main_v8)) :=
    (Pipeline.withArrays_arr spec0 launch0.win.arr_inj c _ _ 9).trans (final m c)
  rw [h]
  rfl

/-- THE RUN: from any memory with zero counters every weakly fair execution of the program terminates, and in every final
    state, on every core, the result buffer holds the regrouped `arrFn` of the arrays the region finds, and each of the
    nine argument buffers holds what it was launched with. The frame run's post, read at the result buffer and at the
    argument buffers (none of them an array of the pipeline), then the lines after the region read at each. -/
theorem run : θ_run defs (onTc (τ := τ) (main (F := F))) ⟨m, fun _ => 0, ρ⟩ fun r => ∀ c : Dev nD,
      r.2.mem ((c.tc : Thread nD τ).loc main_v10)
        = shapeCast S16x12x1024x64 (arrFn (V m c main_v0) (V m c main_v1) (V m c main_v2) (V m c main_v3) (V m c main_v4) (V m c main_v5) (V m c main_v6) (V m c main_v7) (V m c main_v8)) shapeCasts_S192x1024x64_S16x12x1024x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨
      ((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩) (run_main m ρ)

end Cert.KernelIdeal.KernelRun

end
-- ==== Proof.lean ====
/-
  Self-attention over x : f32[16,12,1024,64] — per head, q, k, v = x Wᵀ + b, softmax(q kᵀ · scale) v, then the output
  projection — computed by a kernel that handles four heads per grid point in an inner loop, against the plain jnp reference.

  At the ideal values (floats are extended reals, every operation exact, a change of float format the identity) the two
  programs compute, at every (b, h, s, e), the same head of the input's slice (b, h):
  • the kernel folds (b, h) into one axis of 192 rows, hands its body the transposed weights, and writes row 12·b + h of the
    output from row 12·b + h of the input; its matrix products into a zero accumulator are the reference's contractions, its
    lane maximum and lane sum the reference's reductions over the last axis;
  • the only difference in the arithmetic is the scale of the scores: the kernel multiplies by the constant 1/8, the reference
    divides by √64 — one function on every extended real.
  The same operations are applied in the same order on both sides, so no law used here needs the inputs to be finite, and the
  precondition is never opened. The three frames are the generated frame certificates (the reference's is its generated run
  with the result dropped), and the idealization rewrote nothing, so its ledger is empty.
-/
import proofs.«135089_j80272938762345_2_alg».proof.Defs
import proofs.«135089_j80272938762345_2_alg».proof.Proof.Gen.Kernel
import proofs.«135089_j80272938762345_2_alg».proof.Proof.Gen.Kernel.Frame
import proofs.«135089_j80272938762345_2_alg».proof.Proof.Gen.KernelIdeal
import proofs.«135089_j80272938762345_2_alg».proof.Proof.Gen.KernelIdeal.Frame
import proofs.«135089_j80272938762345_2_alg».proof.Proof.Gen.ReferenceIdeal
import proofs.«135089_j80272938762345_2_alg».proof.Proof.Gen.ReferenceIdeal.Run
import proofs.«135089_j80272938762345_2_alg».proof.Proof.Gen.ReferenceIdeal.Read
import proofs.«135089_j80272938762345_2_alg».proof.Proof.Gen.Pre_finite_inputs
import proofs.«135089_j80272938762345_2_alg».proof.Proof.Bridge
import proofs.«135089_j80272938762345_2_alg».proof.Proof.KernelRun
import Idealize.ShloMosaic.Adequacy
import Idealize.ShloMosaic.Init

noncomputable section

namespace Cert.Proof

open Idealize.ShloMosaic Idealize.SL.Sem

/-- The word-level kernel's frame: the generated frame certificate. -/
theorem frame_k : Cert.frame_Kernel := fun m ρ _ => Cert.Kernel.Gen.frame m ρ

/-- The idealized kernel's frame: the generated frame certificate. -/
theorem frame_ki : Cert.frame_KernelIdeal := fun m ρ _ => Cert.KernelIdeal.Gen.frame m ρ

/-- The reference's frame: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: its ledger is empty. -/
theorem preserves : Cert.preserves_Kernel_KernelIdeal := trivial

/-- At the ideal values the kernel's result array is the reshape of its output array, the reference's its run's term, and
    from memories that agree on the arguments the two are one array (`Cert.Bridge.result_eq`). -/
theorem algebraic : Cert.algebraic_KernelIdeal_ReferenceIdeal := by
  intro m ρ m' ρ' _ hagree
  refine ⟨fun c => Cert.Bridge.kernelResult m c, Cert.KernelIdeal.KernelRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  exact Cert.Bridge.result_eq m m' c h0 h1 h2 h3 h4 h5 h6 h7 h8

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
